-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_v93) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg20 : FVec F S256x1 .f32) (main_arg21 : FVec F S1 .f32) (main_v63 : IVec S_ 1) (main_v67 : IVec S_ 1) : IVec S_ 1 :=
  let main_v68 : IVec S_ 1 := andi main_v63 main_v67
  let main_v69 : FVec F S256x1 .f32 := Host.absf main_arg20
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg21
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg17 : FVec F S256 .f32) (main_arg18 : FVec F S256x256 .f32) (main_arg19 : FVec F S256 .f32) (main_arg20 : FVec F S256x1 .f32) (main_arg21 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg17
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg18
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg19
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg20 main_arg21 main_v63 main_v67

def fn_part2 {F : FTy → Type} [FloatOps F] (main_arg13 : FVec F S256x256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x1 .f32) (main_arg21 : FVec F S1 .f32) (main_v33 : IVec S_ 1) : IVec S_ 1 :=
  let main_v34 : FVec F S256x256 .f32 := Host.absf main_arg13
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg14
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg15
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg16
  let main_cst_18 : FVec F S_ .f32 := constant S_ .f32 0x7F800000#32
  let main_v50 : FVec F S256x256 .f32 := broadcastInDim S256x256 ![] bcast_S_S256x256 main_cst_18
  fn_part3 (F := F) main_arg17 main_arg18 main_arg19 main_arg20 main_arg21 main_v48 main_v49 main_v50

def fn_part1 {F : FTy → Type} [FloatOps F] (main_arg10 : FVec F S256x256 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x1 .f32) (main_arg21 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg13 main_arg14 main_arg15 main_arg16 main_arg17 main_arg18 main_arg19 main_arg20 main_arg21 main_v33

def fn {F : FTy → Type} [FloatOps F] (main_arg0 : FVec F S50000x128 .f32) (main_arg1 : IVec S800000 32) (main_arg2 : IVec S800000 32) (main_arg3 : IVec S100000 32) (main_arg4 : IVec S100000 32) (main_arg5 : IVec S100000 32) (main_arg6 : IVec S100000 32) (main_arg7 : FVec F S128x256 .f32) (main_arg8 : FVec F S128x256 .f32) (main_arg9 : FVec F S256 .f32) (main_arg10 : FVec F S256x256 .f32) (main_arg11 : FVec F S256x256 .f32) (main_arg12 : FVec F S256 .f32) (main_arg13 : FVec F S256x256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x1 .f32) (main_arg21 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg7
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg8
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S800000 : Shape := ⟨1, ![800000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S800000x256 : Shape := ⟨2, ![800000, 256]⟩
abbrev S100000x1 : Shape := ⟨2, ![100000, 1]⟩
abbrev S100000x256 : Shape := ⟨2, ![100000, 256]⟩
abbrev S200000x256 : Shape := ⟨2, ![200000, 256]⟩
abbrev S200000x1 : Shape := ⟨2, ![200000, 1]⟩
abbrev S2000x1 : Shape := ⟨2, ![2000, 1]⟩
abbrev S1x1 : Shape := ⟨2, ![1, 1]⟩

abbrev nBuf : Space → Nat
  | .hbm => 142
  | .vmem => 37
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S100000, .i32⟩
  | 4 => ⟨S100000, .i32⟩
  | 5 => ⟨S100000, .i32⟩
  | 6 => ⟨S100000, .i32⟩
  | 7 => ⟨S128x256, .f32⟩
  | 8 => ⟨S128x256, .f32⟩
  | 9 => ⟨S256, .f32⟩
  | 10 => ⟨S256x256, .f32⟩
  | 11 => ⟨S256x256, .f32⟩
  | 12 => ⟨S256, .f32⟩
  | 13 => ⟨S256x256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x1, .f32⟩
  | 21 => ⟨S1, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000x128, .f32⟩
  | 39 => ⟨S800000x1, .i32⟩
  | 40 => ⟨S50000x128, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x256, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x256, .f32⟩
  | 57 => ⟨S_, .f32⟩
  | 58 => ⟨S800000, .f32⟩
  | 59 => ⟨S_, .f32⟩
  | 60 => ⟨S50000, .f32⟩
  | 61 => ⟨S800000x1, .i32⟩
  | 62 => ⟨S50000, .f32⟩
  | 63 => ⟨S_, .f32⟩
  | 64 => ⟨S50000x256, .f32⟩
  | 65 => ⟨S800000x1, .i32⟩
  | 66 => ⟨S50000x256, .f32⟩
  | 67 => ⟨S_, .f32⟩
  | 68 => ⟨S50000, .f32⟩
  | 69 => ⟨S50000, .f32⟩
  | 70 => ⟨S50000x1, .f32⟩
  | 71 => ⟨S50000x256, .f32⟩
  | 72 => ⟨S50000x256, .f32⟩
  | 73 => ⟨S50000x256, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x256, .f32⟩
  | 83 => ⟨S_, .f32⟩
  | 84 => ⟨S800000, .f32⟩
  | 85 => ⟨S_, .f32⟩
  | 86 => ⟨S50000, .f32⟩
  | 87 => ⟨S800000x1, .i32⟩
  | 88 => ⟨S50000, .f32⟩
  | 89 => ⟨S_, .f32⟩
  | 90 => ⟨S50000x256, .f32⟩
  | 91 => ⟨S800000x1, .i32⟩
  | 92 => ⟨S50000x256, .f32⟩
  | 93 => ⟨S_, .f32⟩
  | 94 => ⟨S50000, .f32⟩
  | 95 => ⟨S50000, .f32⟩
  | 96 => ⟨S50000x1, .f32⟩
  | 97 => ⟨S50000x256, .f32⟩
  | 98 => ⟨S50000x256, .f32⟩
  | 99 => ⟨S50000x256, .f32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S100000x256, .f32⟩
  | 109 => ⟨S_, .i32⟩
  | 110 => ⟨S100000, .i32⟩
  | 111 => ⟨S100000, .i1⟩
  | 112 => ⟨S_, .i32⟩
  | 113 => ⟨S100000, .i32⟩
  | 114 => ⟨S100000, .i32⟩
  | 115 => ⟨S100000, .i32⟩
  | 116 => ⟨S100000x1, .i32⟩
  | 117 => ⟨S100000x256, .f32⟩
  | 118 => ⟨S100000x256, .f32⟩
  | 119 => ⟨S_, .i32⟩
  | 120 => ⟨S100000, .i32⟩
  | 121 => ⟨S100000, .i1⟩
  | 122 => ⟨S_, .i32⟩
  | 123 => ⟨S100000, .i32⟩
  | 124 => ⟨S100000, .i32⟩
  | 125 => ⟨S100000, .i32⟩
  | 126 => ⟨S100000x1, .i32⟩
  | 127 => ⟨S100000x256, .f32⟩
  | _ => ⟨S50000x128, .f32⟩

abbrev hbmTy0_1 (i : Nat) : BufTy := match i % 128 with
  | 0 => ⟨S_, .i32⟩
  | 1 => ⟨S100000, .i32⟩
  | 2 => ⟨S100000, .i1⟩
  | 3 => ⟨S_, .i32⟩
  | 4 => ⟨S100000, .i32⟩
  | 5 => ⟨S100000, .i32⟩
  | 6 => ⟨S100000, .i32⟩
  | 7 => ⟨S100000x1, .i32⟩
  | 8 => ⟨S100000x256, .f32⟩
  | 9 => ⟨S100000x256, .f32⟩
  | 10 => ⟨S200000x256, .f32⟩
  | 11 => ⟨S200000x1, .f32⟩
  | 12 => ⟨S100000x1, .f32⟩
  | 13 => ⟨S100000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256x256, .f32⟩
  | .local _ .vmem, ⟨24, _⟩ => ⟨S256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S256x256, .f32⟩
  | .local _ .vmem, ⟨30, _⟩ => ⟨S256, .f32⟩
  | .local _ .vmem, ⟨31, _⟩ => ⟨S256x256, .f32⟩
  | .local _ .vmem, ⟨32, _⟩ => ⟨S256, .f32⟩
  | .local _ .vmem, ⟨33, _⟩ => ⟨S256x1, .f32⟩
  | .local _ .vmem, ⟨34, _⟩ => ⟨S1, .f32⟩
  | .local _ .vmem, ⟨35, _⟩ => ⟨S2000x1, .f32⟩
  | .local _ .vmem, ⟨36, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_v21 : Ref sig .tc := ⟨.hbm, 50, rfl⟩
abbrev main_c_5 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_6 : Ref sig .tc := ⟨.hbm, 57, rfl⟩
abbrev main_v27 : Ref sig .tc := ⟨.hbm, 58, rfl⟩
abbrev main_cst_7 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_8 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_9 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_10 : Ref sig .tc := ⟨.hbm, 74, rfl⟩
abbrev main_v40 : Ref sig .tc := ⟨.hbm, 75, rfl⟩
abbrev main_v41 : Ref sig .tc := ⟨.hbm, 76, rfl⟩
abbrev main_c_11 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_12 : Ref sig .tc := ⟨.hbm, 83, rfl⟩
abbrev main_v47 : Ref sig .tc := ⟨.hbm, 84, rfl⟩
abbrev main_cst_13 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_14 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_15 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_16 : Ref sig .tc := ⟨.hbm, 100, rfl⟩
abbrev main_v60 : Ref sig .tc := ⟨.hbm, 101, rfl⟩
abbrev main_v61 : Ref sig .tc := ⟨.hbm, 102, rfl⟩
abbrev main_c_17 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_18 : Ref sig .tc := ⟨.hbm, 109, rfl⟩
abbrev main_v67 : Ref sig .tc := ⟨.hbm, 110, rfl⟩
abbrev main_v68 : Ref sig .tc := ⟨.hbm, 111, rfl⟩
abbrev main_c_19 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_c_20 : Ref sig .tc := ⟨.hbm, 119, rfl⟩
abbrev main_v75 : Ref sig .tc := ⟨.hbm, 120, rfl⟩
abbrev main_v76 : Ref sig .tc := ⟨.hbm, 121, rfl⟩
abbrev main_c_21 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_c_22 : Ref sig .tc := ⟨.hbm, 128, rfl⟩
abbrev main_v82 : Ref sig .tc := ⟨.hbm, 129, rfl⟩
abbrev main_v83 : Ref sig .tc := ⟨.hbm, 130, rfl⟩
abbrev main_c_23 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg7_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem7_1 : DmaSem sig := 36

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S_S100000 : S_.BroadcastsInDim S100000 (![] : Fin 0 → Fin S100000.rank)
  bcast_S100000_S100000x1_0 : S100000.BroadcastsInDim S100000x1 (![0] : Fin 1 → Fin S100000x1.rank)
  concatenates_S100000x256_S100000x256_S200000x256_d0 : Shape.Concatenates [S100000x256, S100000x256] S200000x256 0
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  slices_S200000x1_S100000x1_0_0 : S200000x1.Slices ![0, 0] S100000x1
  slices_S200000x1_S100000x1_100000_0 : S200000x1.Slices ![100000, 0] S100000x1
  gather_S50000x128_S800000x1_S800000x128_1_0_n_n_0_1_1128_wf : GatherDims.WF S50000x128 S800000x1 S800000x128 [1] [0] [] [0] [] 1 ![1, 128]
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  gather_S50000x256_S100000x1_S100000x256_1_0_n_n_0_1_1256_wf : GatherDims.WF S50000x256 S100000x1 S100000x256 [1] [0] [] [0] [] 1 ![1, 256]
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256.size a ≤ S256.size a
  hwx2_4 : ∀ i : grid2.Coords, EltTy.bits .f32 = 32 ∨ (Rect.block (s := S256) S256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S200000x256.size a
  hwx3_0 : ∀ i : grid3.Coords, EltTy.bits .f32 = 32 ∨ (Rect.block (s := S200000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256.size a ≤ S256.size a
  hwx3_4 : ∀ i : grid3.Coords, EltTy.bits .f32 = 32 ∨ (Rect.block (s := S256) S256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x1.size a ≤ S256x1.size a
  hwx3_5 : ∀ i : grid3.Coords, EltTy.bits .f32 = 32 ∨ (Rect.block (s := S256x1) S256x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1.size a ≤ S1.size a
  hwx3_6 : ∀ i : grid3.Coords, EltTy.bits .f32 = 32 ∨ (Rect.block (s := S1) S1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x1.size a ≤ S200000x1.size a
  hwx3_7 : ∀ i : grid3.Coords, EltTy.bits .f32 = 32 ∨ (Rect.block (s := S200000x1) S2000x1.size (cc3_transform_7 i) (hinb3_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v90) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg16) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg17) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg18) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg19) S256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg20) S256x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg21) S1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v91) S2000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S100000 : Shape := ⟨1, ![100000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S100000x1 : Shape := ⟨2, ![100000, 1]⟩
abbrev S100000x256 : Shape := ⟨2, ![100000, 256]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S100000, .i32⟩
  | 4 => ⟨S100000, .i32⟩
  | 5 => ⟨S100000, .i32⟩
  | 6 => ⟨S100000, .i32⟩
  | 7 => ⟨S128x256, .f32⟩
  | 8 => ⟨S128x256, .f32⟩
  | 9 => ⟨S256, .f32⟩
  | 10 => ⟨S256x256, .f32⟩
  | 11 => ⟨S256x256, .f32⟩
  | 12 => ⟨S256, .f32⟩
  | 13 => ⟨S256x256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x1, .f32⟩
  | 21 => ⟨S1, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000x128, .f32⟩
  | 39 => ⟨S800000x1, .i32⟩
  | 40 => ⟨S50000x128, .f32⟩
  | 41 => ⟨S_, .f32⟩
  | 42 => ⟨S50000, .f32⟩
  | 43 => ⟨S50000, .f32⟩
  | 44 => ⟨S50000x1, .f32⟩
  | 45 => ⟨S50000x128, .f32⟩
  | 46 => ⟨S50000x128, .f32⟩
  | 47 => ⟨S50000x256, .f32⟩
  | 48 => ⟨S50000x256, .f32⟩
  | 49 => ⟨S50000x256, .f32⟩
  | 50 => ⟨S1x256, .f32⟩
  | 51 => ⟨S50000x256, .f32⟩
  | 52 => ⟨S50000x256, .f32⟩
  | 53 => ⟨S_, .f32⟩
  | 54 => ⟨S50000x256, .f32⟩
  | 55 => ⟨S50000x256, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x256, .f32⟩
  | 65 => ⟨S_, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S50000x256, .f32⟩
  | 73 => ⟨S800000x1, .i32⟩
  | 74 => ⟨S50000x256, .f32⟩
  | 75 => ⟨S_, .f32⟩
  | 76 => ⟨S50000, .f32⟩
  | 77 => ⟨S50000, .f32⟩
  | 78 => ⟨S50000x1, .f32⟩
  | 79 => ⟨S50000x256, .f32⟩
  | 80 => ⟨S50000x256, .f32⟩
  | 81 => ⟨S50000x256, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S_, .f32⟩
  | 88 => ⟨S50000x256, .f32⟩
  | 89 => ⟨S50000x256, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x256, .f32⟩
  | 99 => ⟨S_, .f32⟩
  | 100 => ⟨S800000, .f32⟩
  | 101 => ⟨S_, .f32⟩
  | 102 => ⟨S50000, .f32⟩
  | 103 => ⟨S800000x1, .i32⟩
  | 104 => ⟨S50000, .f32⟩
  | 105 => ⟨S_, .f32⟩
  | 106 => ⟨S50000x256, .f32⟩
  | 107 => ⟨S800000x1, .i32⟩
  | 108 => ⟨S50000x256, .f32⟩
  | 109 => ⟨S_, .f32⟩
  | 110 => ⟨S50000, .f32⟩
  | 111 => ⟨S50000, .f32⟩
  | 112 => ⟨S50000x1, .f32⟩
  | 113 => ⟨S50000x256, .f32⟩
  | 114 => ⟨S50000x256, .f32⟩
  | 115 => ⟨S50000x256, .f32⟩
  | 116 => ⟨S50000x256, .f32⟩
  | 117 => ⟨S50000x256, .f32⟩
  | 118 => ⟨S1x256, .f32⟩
  | 119 => ⟨S50000x256, .f32⟩
  | 120 => ⟨S50000x256, .f32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S50000x128, .f32⟩

abbrev hbmTy0_1 (i : Nat) : BufTy := match i % 128 with
  | 0 => ⟨S100000x1, .i32⟩
  | 1 => ⟨S100000x256, .f32⟩
  | 2 => ⟨S_, .i32⟩
  | 3 => ⟨S100000, .i32⟩
  | 4 => ⟨S100000, .i1⟩
  | 5 => ⟨S_, .i32⟩
  | 6 => ⟨S100000, .i32⟩
  | 7 => ⟨S100000, .i32⟩
  | 8 => ⟨S100000, .i32⟩
  | 9 => ⟨S100000x1, .i32⟩
  | 10 => ⟨S100000x256, .f32⟩
  | 11 => ⟨S100000x256, .f32⟩
  | 12 => ⟨S100000x256, .f32⟩
  | 13 => ⟨S1x256, .f32⟩
  | 14 => ⟨S100000x256, .f32⟩
  | 15 => ⟨S100000x256, .f32⟩
  | 16 => ⟨S_, .f32⟩
  | 17 => ⟨S100000x256, .f32⟩
  | 18 => ⟨S100000x256, .f32⟩
  | 19 => ⟨S100000x256, .f32⟩
  | 20 => ⟨S1x256, .f32⟩
  | 21 => ⟨S100000x256, .f32⟩
  | 22 => ⟨S100000x256, .f32⟩
  | 23 => ⟨S_, .f32⟩
  | 24 => ⟨S100000x256, .f32⟩
  | 25 => ⟨S100000x256, .f32⟩
  | 26 => ⟨S100000x1, .f32⟩
  | 27 => ⟨S1x1, .f32⟩
  | 28 => ⟨S100000x1, .f32⟩
  | 29 => ⟨S100000x1, .f32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S100000x256, .f32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x256, .f32⟩
  | 48 => ⟨S100000x256, .f32⟩
  | 49 => ⟨S100000x256, .f32⟩
  | 50 => ⟨S1x256, .f32⟩
  | 51 => ⟨S100000x256, .f32⟩
  | 52 => ⟨S100000x256, .f32⟩
  | 53 => ⟨S_, .f32⟩
  | 54 => ⟨S100000x256, .f32⟩
  | 55 => ⟨S100000x256, .f32⟩
  | 56 => ⟨S100000x256, .f32⟩
  | 57 => ⟨S1x256, .f32⟩
  | 58 => ⟨S100000x256, .f32⟩
  | 59 => ⟨S100000x256, .f32⟩
  | 60 => ⟨S_, .f32⟩
  | 61 => ⟨S100000x256, .f32⟩
  | 62 => ⟨S100000x256, .f32⟩
  | 63 => ⟨S100000x1, .f32⟩
  | 64 => ⟨S1x1, .f32⟩
  | 65 => ⟨S100000x1, .f32⟩
  | 66 => ⟨S100000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_call0_cst : Ref sig .tc := ⟨.hbm, 53, rfl⟩
abbrev main_call0_v0 : Ref sig .tc := ⟨.hbm, 54, rfl⟩
abbrev main_v25 : Ref sig .tc := ⟨.hbm, 55, rfl⟩
abbrev main_c_4 : Ref sig .tc := ⟨.hbm, 56, rfl⟩
abbrev main_v26 : Ref sig .tc := ⟨.hbm, 57, rfl⟩
abbrev main_v27 : Ref sig .tc := ⟨.hbm, 58, rfl⟩
abbrev main_c_5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_6 : Ref sig .tc := ⟨.hbm, 65, rfl⟩
abbrev main_v33 : Ref sig .tc := ⟨.hbm, 66, rfl⟩
abbrev main_cst_7 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_8 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_9 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call1_cst : Ref sig .tc := ⟨.hbm, 87, rfl⟩
abbrev main_call1_v0 : Ref sig .tc := ⟨.hbm, 88, rfl⟩
abbrev main_v51 : Ref sig .tc := ⟨.hbm, 89, rfl⟩
abbrev main_c_10 : Ref sig .tc := ⟨.hbm, 90, rfl⟩
abbrev main_v52 : Ref sig .tc := ⟨.hbm, 91, rfl⟩
abbrev main_v53 : Ref sig .tc := ⟨.hbm, 92, rfl⟩
abbrev main_c_11 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_12 : Ref sig .tc := ⟨.hbm, 99, rfl⟩
abbrev main_v59 : Ref sig .tc := ⟨.hbm, 100, rfl⟩
abbrev main_cst_13 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_14 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_15 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_16 : Ref sig .tc := ⟨.hbm, 121, rfl⟩
abbrev main_v77 : Ref sig .tc := ⟨.hbm, 122, rfl⟩
abbrev main_v78 : Ref sig .tc := ⟨.hbm, 123, rfl⟩
abbrev main_c_17 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_18 : Ref sig .tc := ⟨.hbm, 130, rfl⟩
abbrev main_v84 : Ref sig .tc := ⟨.hbm, 131, rfl⟩
abbrev main_v85 : Ref sig .tc := ⟨.hbm, 132, rfl⟩
abbrev main_c_19 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_call2_cst : Ref sig .tc := ⟨.hbm, 144, rfl⟩
abbrev main_call2_v0 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_call3_cst : Ref sig .tc := ⟨.hbm, 151, rfl⟩
abbrev main_call3_v0 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_c_20 : Ref sig .tc := ⟨.hbm, 158, rfl⟩
abbrev main_v106 : Ref sig .tc := ⟨.hbm, 159, rfl⟩
abbrev main_v107 : Ref sig .tc := ⟨.hbm, 160, rfl⟩
abbrev main_c_21 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_c_22 : Ref sig .tc := ⟨.hbm, 167, rfl⟩
abbrev main_v113 : Ref sig .tc := ⟨.hbm, 168, rfl⟩
abbrev main_v114 : Ref sig .tc := ⟨.hbm, 169, rfl⟩
abbrev main_c_23 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_call4_cst : Ref sig .tc := ⟨.hbm, 181, rfl⟩
abbrev main_call4_v0 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_call5_cst : Ref sig .tc := ⟨.hbm, 188, rfl⟩
abbrev main_call5_v0 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S50000x128_S800000x1_S800000x128_1_0_n_n_0_1_1128_wf : GatherDims.WF S50000x128 S800000x1 S800000x128 [1] [0] [] [0] [] 1 ![1, 128]
  scatter_S50000_S800000x1_S800000_n_0_0_1_wf : ScatterDims.WF S50000 S800000x1 S800000 [] [0] [0] 1
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  gather_S50000x256_S100000x1_S100000x256_1_0_n_n_0_1_1256_wf : GatherDims.WF S50000x256 S100000x1 S100000x256 [1] [0] [] [0] [] 1 ![1, 256]
  dot_S100000x256_S256x256_S100000x256_1_0_0_1_n_n_wf : DotDims.WF S100000x256 S256x256 S100000x256 [1] [0] [0] [1] [] []
  dot_S100000x256_S256x1_S100000x1_1_0_0_1_n_n_wf : DotDims.WF S100000x256 S256x1 S100000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.KRun.lean ====
/-
  The kernel program's run with its two results named.

  The program is nine segments: five stretches of host operations and four tiled regions between them.  The buffer
  contents at each segment boundary are a fold from the launch memory (`W0` … `W9` of the generated frame module); every
  weakly fair execution ends with each unscoped buffer at the last boundary's contents `W9`.  Here that run is stated with
  the two result buffers read at `W9`, beside the arguments, which end as launched.
-/
import proofs.«145438_j62165356642855_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two results end at the last boundary's contents and
    the arguments as launched. -/
theorem run_named : θ_run defs (onTc (τ := τ) (main (F := F))) ⟨m, fun _ => 0, ρ⟩ (fun r => ∀ c : Dev nD,
      r.2.mem ((c.tc : Thread nD τ).loc main_v92) = W9 m ρ c (Proc.devRef .tc main_v92)
      ∧ r.2.mem ((c.tc : Thread nD τ).loc main_v93) = W9 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v92 (by decide)), h c _ (mem_uc main_v93 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c)⟩)

end Cert.KernelIdeal.Whole

end
-- ==== Proof.KWalk.lean ====
/-
  The arguments at the segment boundaries where a later segment reads them.

  No host operation writes an argument, and a region writes only its result array; so at every boundary before the
  segment that reads it an argument buffer still holds what it held at launch.  Each lemma walks one argument back through
  the fold of boundary contents, one segment at a time.
-/
import proofs.«145438_j62165356642855_1_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.SL.Sem

/-- A buffer no operation of a host stretch writes holds after the stretch what it held before. -/
macro "host_keeps" : tactic => `(tactic|
  exact StableHlo.after_of_forall_not_mem _ _ (List.forall_iff_forall_mem.mp (by
    simp only [hostOps0, hostOps1, hostOps2, hostOps3, hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg) (c : Dev nD)

theorem w1_arg0 : W1 m ρ c (Proc.devRef .tc main_arg0) = m ((c : Thread nD τ).loc main_arg0) :=
  (by host_keeps : W1 m ρ c (Proc.devRef .tc main_arg0) = W0 m ρ c (Proc.devRef .tc main_arg0)).trans rfl
theorem w1_arg1 : W1 m ρ c (Proc.devRef .tc main_arg1) = m ((c : Thread nD τ).loc main_arg1) :=
  (by host_keeps : W1 m ρ c (Proc.devRef .tc main_arg1) = W0 m ρ c (Proc.devRef .tc main_arg1)).trans rfl
theorem w2_arg1 : W2 m ρ c (Proc.devRef .tc main_arg1) = m ((c : Thread nD τ).loc main_arg1) :=
  (W2_of_ne m ρ c main_arg1 (by decide)).trans (w1_arg1 m ρ c)
theorem w3_arg1 : W3 m ρ c (Proc.devRef .tc main_arg1) = m ((c : Thread nD τ).loc main_arg1) :=
  (by host_keeps : W3 m ρ c (Proc.devRef .tc main_arg1) = W2 m ρ c (Proc.devRef .tc main_arg1)).trans (w2_arg1 m ρ c)
theorem w4_arg1 : W4 m ρ c (Proc.devRef .tc main_arg1) = m ((c : Thread nD τ).loc main_arg1) :=
  (W4_of_ne m ρ c main_arg1 (by decide)).trans (w3_arg1 m ρ c)
theorem w1_arg2 : W1 m ρ c (Proc.devRef .tc main_arg2) = m ((c : Thread nD τ).loc main_arg2) :=
  (by host_keeps : W1 m ρ c (Proc.devRef .tc main_arg2) = W0 m ρ c (Proc.devRef .tc main_arg2)).trans rfl
theorem w2_arg2 : W2 m ρ c (Proc.devRef .tc main_arg2) = m ((c : Thread nD τ).loc main_arg2) :=
  (W2_of_ne m ρ c main_arg2 (by decide)).trans (w1_arg2 m ρ c)
theorem w3_arg2 : W3 m ρ c (Proc.devRef .tc main_arg2) = m ((c : Thread nD τ).loc main_arg2) :=
  (by host_keeps : W3 m ρ c (Proc.devRef .tc main_arg2) = W2 m ρ c (Proc.devRef .tc main_arg2)).trans (w2_arg2 m ρ c)
theorem w4_arg2 : W4 m ρ c (Proc.devRef .tc main_arg2) = m ((c : Thread nD τ).loc main_arg2) :=
  (W4_of_ne m ρ c main_arg2 (by decide)).trans (w3_arg2 m ρ c)
theorem w1_arg3 : W1 m ρ c (Proc.devRef .tc main_arg3) = m ((c : Thread nD τ).loc main_arg3) :=
  (by host_keeps : W1 m ρ c (Proc.devRef .tc main_arg3) = W0 m ρ c (Proc.devRef .tc main_arg3)).trans rfl
theorem w2_arg3 : W2 m ρ c (Proc.devRef .tc main_arg3) = m ((c : Thread nD τ).loc main_arg3) :=
  (W2_of_ne m ρ c main_arg3 (by decide)).trans (w1_arg3 m ρ c)
theorem w3_arg3 : W3 m ρ c (Proc.devRef .tc main_arg3) = m ((c : Thread nD τ).loc main_arg3) :=
  (by host_keeps : W3 m ρ c (Proc.devRef .tc main_arg3) = W2 m ρ c (Proc.devRef .tc main_arg3)).trans (w2_arg3 m ρ c)
theorem w4_arg3 : W4 m ρ c (Proc.devRef .tc main_arg3) = m ((c : Thread nD τ).loc main_arg3) :=
  (W4_of_ne m ρ c main_arg3 (by decide)).trans (w3_arg3 m ρ c)
theorem w5_arg3 : W5 m ρ c (Proc.devRef .tc main_arg3) = m ((c : Thread nD τ).loc main_arg3) :=
  (by host_keeps : W5 m ρ c (Proc.devRef .tc main_arg3) = W4 m ρ c (Proc.devRef .tc main_arg3)).trans (w4_arg3 m ρ c)
theorem w6_arg3 : W6 m ρ c (Proc.devRef .tc main_arg3) = m ((c : Thread nD τ).loc main_arg3) :=
  (W6_of_ne m ρ c main_arg3 (by decide)).trans (w5_arg3 m ρ c)
theorem w1_arg4 : W1 m ρ c (Proc.devRef .tc main_arg4) = m ((c : Thread nD τ).loc main_arg4) :=
  (by host_keeps : W1 m ρ c (Proc.devRef .tc main_arg4) = W0 m ρ c (Proc.devRef .tc main_arg4)).trans rfl
theorem w2_arg4 : W2 m ρ c (Proc.devRef .tc main_arg4) = m ((c : Thread nD τ).loc main_arg4) :=
  (W2_of_ne m ρ c main_arg4 (by decide)).trans (w1_arg4 m ρ c)
theorem w3_arg4 : W3 m ρ c (Proc.devRef .tc main_arg4) = m ((c : Thread nD τ).loc main_arg4) :=
  (by host_keeps : W3 m ρ c (Proc.devRef .tc main_arg4) = W2 m ρ c (Proc.devRef .tc main_arg4)).trans (w2_arg4 m ρ c)
theorem w4_arg4 : W4 m ρ c (Proc.devRef .tc main_arg4) = m ((c : Thread nD τ).loc main_arg4) :=
  (W4_of_ne m ρ c main_arg4 (by decide)).trans (w3_arg4 m ρ c)
theorem w5_arg4 : W5 m ρ c (Proc.devRef .tc main_arg4) = m ((c : Thread nD τ).loc main_arg4) :=
  (by host_keeps : W5 m ρ c (Proc.devRef .tc main_arg4) = W4 m ρ c (Proc.devRef .tc main_arg4)).trans (w4_arg4 m ρ c)
theorem w6_arg4 : W6 m ρ c (Proc.devRef .tc main_arg4) = m ((c : Thread nD τ).loc main_arg4) :=
  (W6_of_ne m ρ c main_arg4 (by decide)).trans (w5_arg4 m ρ c)
theorem w1_arg5 : W1 m ρ c (Proc.devRef .tc main_arg5) = m ((c : Thread nD τ).loc main_arg5) :=
  (by host_keeps : W1 m ρ c (Proc.devRef .tc main_arg5) = W0 m ρ c (Proc.devRef .tc main_arg5)).trans rfl
theorem w2_arg5 : W2 m ρ c (Proc.devRef .tc main_arg5) = m ((c : Thread nD τ).loc main_arg5) :=
  (W2_of_ne m ρ c main_arg5 (by decide)).trans (w1_arg5 m ρ c)
theorem w3_arg5 : W3 m ρ c (Proc.devRef .tc main_arg5) = m ((c : Thread nD τ).loc main_arg5) :=
  (by host_keeps : W3 m ρ c (Proc.devRef .tc main_arg5) = W2 m ρ c (Proc.devRef .tc main_arg5)).trans (w2_arg5 m ρ c)
theorem w4_arg5 : W4 m ρ c (Proc.devRef .tc main_arg5) = m ((c : Thread nD τ).loc main_arg5) :=
  (W4_of_ne m ρ c main_arg5 (by decide)).trans (w3_arg5 m ρ c)
theorem w5_arg5 : W5 m ρ c (Proc.devRef .tc main_arg5) = m ((c : Thread nD τ).loc main_arg5) :=
  (by host_keeps : W5 m ρ c (Proc.devRef .tc main_arg5) = W4 m ρ c (Proc.devRef .tc main_arg5)).trans (w4_arg5 m ρ c)
theorem w6_arg5 : W6 m ρ c (Proc.devRef .tc main_arg5) = m ((c : Thread nD τ).loc main_arg5) :=
  (W6_of_ne m ρ c main_arg5 (by decide)).trans (w5_arg5 m ρ c)
theorem w1_arg6 : W1 m ρ c (Proc.devRef .tc main_arg6) = m ((c : Thread nD τ).loc main_arg6) :=
  (by host_keeps : W1 m ρ c (Proc.devRef .tc main_arg6) = W0 m ρ c (Proc.devRef .tc main_arg6)).trans rfl
theorem w2_arg6 : W2 m ρ c (Proc.devRef .tc main_arg6) = m ((c : Thread nD τ).loc main_arg6) :=
  (W2_of_ne m ρ c main_arg6 (by decide)).trans (w1_arg6 m ρ c)
theorem w3_arg6 : W3 m ρ c (Proc.devRef .tc main_arg6) = m ((c : Thread nD τ).loc main_arg6) :=
  (by host_keeps : W3 m ρ c (Proc.devRef .tc main_arg6) = W2 m ρ c (Proc.devRef .tc main_arg6)).trans (w2_arg6 m ρ c)
theorem w4_arg6 : W4 m ρ c (Proc.devRef .tc main_arg6) = m ((c : Thread nD τ).loc main_arg6) :=
  (W4_of_ne m ρ c main_arg6 (by decide)).trans (w3_arg6 m ρ c)
theorem w5_arg6 : W5 m ρ c (Proc.devRef .tc main_arg6) = m ((c : Thread nD τ).loc main_arg6) :=
  (by host_keeps : W5 m ρ c (Proc.devRef .tc main_arg6) = W4 m ρ c (Proc.devRef .tc main_arg6)).trans (w4_arg6 m ρ c)
theorem w6_arg6 : W6 m ρ c (Proc.devRef .tc main_arg6) = m ((c : Thread nD τ).loc main_arg6) :=
  (W6_of_ne m ρ c main_arg6 (by decide)).trans (w5_arg6 m ρ c)
theorem w1_arg7 : W1 m ρ c (Proc.devRef .tc main_arg7) = m ((c : Thread nD τ).loc main_arg7) :=
  (by host_keeps : W1 m ρ c (Proc.devRef .tc main_arg7) = W0 m ρ c (Proc.devRef .tc main_arg7)).trans rfl
theorem w1_arg8 : W1 m ρ c (Proc.devRef .tc main_arg8) = m ((c : Thread nD τ).loc main_arg8) :=
  (by host_keeps : W1 m ρ c (Proc.devRef .tc main_arg8) = W0 m ρ c (Proc.devRef .tc main_arg8)).trans rfl
theorem w1_arg9 : W1 m ρ c (Proc.devRef .tc main_arg9) = m ((c : Thread nD τ).loc main_arg9) :=
  (by host_keeps : W1 m ρ c (Proc.devRef .tc main_arg9) = W0 m ρ c (Proc.devRef .tc main_arg9)).trans rfl
theorem w1_arg10 : W1 m ρ c (Proc.devRef .tc main_arg10) = m ((c : Thread nD τ).loc main_arg10) :=
  (by host_keeps : W1 m ρ c (Proc.devRef .tc main_arg10) = W0 m ρ c (Proc.devRef .tc main_arg10)).trans rfl
theorem w2_arg10 : W2 m ρ c (Proc.devRef .tc main_arg10) = m ((c : Thread nD τ).loc main_arg10) :=
  (W2_of_ne m ρ c main_arg10 (by decide)).trans (w1_arg10 m ρ c)
theorem w3_arg10 : W3 m ρ c (Proc.devRef .tc main_arg10) = m ((c : Thread nD τ).loc main_arg10) :=
  (by host_keeps : W3 m ρ c (Proc.devRef .tc main_arg10) = W2 m ρ c (Proc.devRef .tc main_arg10)).trans (w2_arg10 m ρ c)
theorem w1_arg11 : W1 m ρ c (Proc.devRef .tc main_arg11) = m ((c : Thread nD τ).loc main_arg11) :=
  (by host_keeps : W1 m ρ c (Proc.devRef .tc main_arg11) = W0 m ρ c (Proc.devRef .tc main_arg11)).trans rfl
theorem w2_arg11 : W2 m ρ c (Proc.devRef .tc main_arg11) = m ((c : Thread nD τ).loc main_arg11) :=
  (W2_of_ne m ρ c main_arg11 (by decide)).trans (w1_arg11 m ρ c)
theorem w3_arg11 : W3 m ρ c (Proc.devRef .tc main_arg11) = m ((c : Thread nD τ).loc main_arg11) :=
  (by host_keeps : W3 m ρ c (Proc.devRef .tc main_arg11) = W2 m ρ c (Proc.devRef .tc main_arg11)).trans (w2_arg11 m ρ c)
theorem w1_arg12 : W1 m ρ c (Proc.devRef .tc main_arg12) = m ((c : Thread nD τ).loc main_arg12) :=
  (by host_keeps : W1 m ρ c (Proc.devRef .tc main_arg12) = W0 m ρ c (Proc.devRef .tc main_arg12)).trans rfl
theorem w2_arg12 : W2 m ρ c (Proc.devRef .tc main_arg12) = m ((c : Thread nD τ).loc main_arg12) :=
  (W2_of_ne m ρ c main_arg12 (by decide)).trans (w1_arg12 m ρ c)
theorem w3_arg12 : W3 m ρ c (Proc.devRef .tc main_arg12) = m ((c : Thread nD τ).loc main_arg12) :=
  (by host_keeps : W3 m ρ c (Proc.devRef .tc main_arg12) = W2 m ρ c (Proc.devRef .tc main_arg12)).trans (w2_arg12 m ρ c)
theorem w1_arg13 : W1 m ρ c (Proc.devRef .tc main_arg13) = m ((c : Thread nD τ).loc main_arg13) :=
  (by host_keeps : W1 m ρ c (Proc.devRef .tc main_arg13) = W0 m ρ c (Proc.devRef .tc main_arg13)).trans rfl
theorem w2_arg13 : W2 m ρ c (Proc.devRef .tc main_arg13) = m ((c : Thread nD τ).loc main_arg13) :=
  (W2_of_ne m ρ c main_arg13 (by decide)).trans (w1_arg13 m ρ c)
theorem w3_arg13 : W3 m ρ c (Proc.devRef .tc main_arg13) = m ((c : Thread nD τ).loc main_arg13) :=
  (by host_keeps : W3 m ρ c (Proc.devRef .tc main_arg13) = W2 m ρ c (Proc.devRef .tc main_arg13)).trans (w2_arg13 m ρ c)
theorem w4_arg13 : W4 m ρ c (Proc.devRef .tc main_arg13) = m ((c : Thread nD τ).loc main_arg13) :=
  (W4_of_ne m ρ c main_arg13 (by decide)).trans (w3_arg13 m ρ c)
theorem w5_arg13 : W5 m ρ c (Proc.devRef .tc main_arg13) = m ((c : Thread nD τ).loc main_arg13) :=
  (by host_keeps : W5 m ρ c (Proc.devRef .tc main_arg13) = W4 m ρ c (Proc.devRef .tc main_arg13)).trans (w4_arg13 m ρ c)
theorem w1_arg14 : W1 m ρ c (Proc.devRef .tc main_arg14) = m ((c : Thread nD τ).loc main_arg14) :=
  (by host_keeps : W1 m ρ c (Proc.devRef .tc main_arg14) = W0 m ρ c (Proc.devRef .tc main_arg14)).trans rfl
theorem w2_arg14 : W2 m ρ c (Proc.devRef .tc main_arg14) = m ((c : Thread nD τ).loc main_arg14) :=
  (W2_of_ne m ρ c main_arg14 (by decide)).trans (w1_arg14 m ρ c)
theorem w3_arg14 : W3 m ρ c (Proc.devRef .tc main_arg14) = m ((c : Thread nD τ).loc main_arg14) :=
  (by host_keeps : W3 m ρ c (Proc.devRef .tc main_arg14) = W2 m ρ c (Proc.devRef .tc main_arg14)).trans (w2_arg14 m ρ c)
theorem w4_arg14 : W4 m ρ c (Proc.devRef .tc main_arg14) = m ((c : Thread nD τ).loc main_arg14) :=
  (W4_of_ne m ρ c main_arg14 (by decide)).trans (w3_arg14 m ρ c)
theorem w5_arg14 : W5 m ρ c (Proc.devRef .tc main_arg14) = m ((c : Thread nD τ).loc main_arg14) :=
  (by host_keeps : W5 m ρ c (Proc.devRef .tc main_arg14) = W4 m ρ c (Proc.devRef .tc main_arg14)).trans (w4_arg14 m ρ c)
theorem w1_arg15 : W1 m ρ c (Proc.devRef .tc main_arg15) = m ((c : Thread nD τ).loc main_arg15) :=
  (by host_keeps : W1 m ρ c (Proc.devRef .tc main_arg15) = W0 m ρ c (Proc.devRef .tc main_arg15)).trans rfl
theorem w2_arg15 : W2 m ρ c (Proc.devRef .tc main_arg15) = m ((c : Thread nD τ).loc main_arg15) :=
  (W2_of_ne m ρ c main_arg15 (by decide)).trans (w1_arg15 m ρ c)
theorem w3_arg15 : W3 m ρ c (Proc.devRef .tc main_arg15) = m ((c : Thread nD τ).loc main_arg15) :=
  (by host_keeps : W3 m ρ c (Proc.devRef .tc main_arg15) = W2 m ρ c (Proc.devRef .tc main_arg15)).trans (w2_arg15 m ρ c)
theorem w4_arg15 : W4 m ρ c (Proc.devRef .tc main_arg15) = m ((c : Thread nD τ).loc main_arg15) :=
  (W4_of_ne m ρ c main_arg15 (by decide)).trans (w3_arg15 m ρ c)
theorem w5_arg15 : W5 m ρ c (Proc.devRef .tc main_arg15) = m ((c : Thread nD τ).loc main_arg15) :=
  (by host_keeps : W5 m ρ c (Proc.devRef .tc main_arg15) = W4 m ρ c (Proc.devRef .tc main_arg15)).trans (w4_arg15 m ρ c)
theorem w1_arg16 : W1 m ρ c (Proc.devRef .tc main_arg16) = m ((c : Thread nD τ).loc main_arg16) :=
  (by host_keeps : W1 m ρ c (Proc.devRef .tc main_arg16) = W0 m ρ c (Proc.devRef .tc main_arg16)).trans rfl
theorem w2_arg16 : W2 m ρ c (Proc.devRef .tc main_arg16) = m ((c : Thread nD τ).loc main_arg16) :=
  (W2_of_ne m ρ c main_arg16 (by decide)).trans (w1_arg16 m ρ c)
theorem w3_arg16 : W3 m ρ c (Proc.devRef .tc main_arg16) = m ((c : Thread nD τ).loc main_arg16) :=
  (by host_keeps : W3 m ρ c (Proc.devRef .tc main_arg16) = W2 m ρ c (Proc.devRef .tc main_arg16)).trans (w2_arg16 m ρ c)
theorem w4_arg16 : W4 m ρ c (Proc.devRef .tc main_arg16) = m ((c : Thread nD τ).loc main_arg16) :=
  (W4_of_ne m ρ c main_arg16 (by decide)).trans (w3_arg16 m ρ c)
theorem w5_arg16 : W5 m ρ c (Proc.devRef .tc main_arg16) = m ((c : Thread nD τ).loc main_arg16) :=
  (by host_keeps : W5 m ρ c (Proc.devRef .tc main_arg16) = W4 m ρ c (Proc.devRef .tc main_arg16)).trans (w4_arg16 m ρ c)
theorem w6_arg16 : W6 m ρ c (Proc.devRef .tc main_arg16) = m ((c : Thread nD τ).loc main_arg16) :=
  (W6_of_ne m ρ c main_arg16 (by decide)).trans (w5_arg16 m ρ c)
theorem w7_arg16 : W7 m ρ c (Proc.devRef .tc main_arg16) = m ((c : Thread nD τ).loc main_arg16) :=
  (by host_keeps : W7 m ρ c (Proc.devRef .tc main_arg16) = W6 m ρ c (Proc.devRef .tc main_arg16)).trans (w6_arg16 m ρ c)
theorem w1_arg17 : W1 m ρ c (Proc.devRef .tc main_arg17) = m ((c : Thread nD τ).loc main_arg17) :=
  (by host_keeps : W1 m ρ c (Proc.devRef .tc main_arg17) = W0 m ρ c (Proc.devRef .tc main_arg17)).trans rfl
theorem w2_arg17 : W2 m ρ c (Proc.devRef .tc main_arg17) = m ((c : Thread nD τ).loc main_arg17) :=
  (W2_of_ne m ρ c main_arg17 (by decide)).trans (w1_arg17 m ρ c)
theorem w3_arg17 : W3 m ρ c (Proc.devRef .tc main_arg17) = m ((c : Thread nD τ).loc main_arg17) :=
  (by host_keeps : W3 m ρ c (Proc.devRef .tc main_arg17) = W2 m ρ c (Proc.devRef .tc main_arg17)).trans (w2_arg17 m ρ c)
theorem w4_arg17 : W4 m ρ c (Proc.devRef .tc main_arg17) = m ((c : Thread nD τ).loc main_arg17) :=
  (W4_of_ne m ρ c main_arg17 (by decide)).trans (w3_arg17 m ρ c)
theorem w5_arg17 : W5 m ρ c (Proc.devRef .tc main_arg17) = m ((c : Thread nD τ).loc main_arg17) :=
  (by host_keeps : W5 m ρ c (Proc.devRef .tc main_arg17) = W4 m ρ c (Proc.devRef .tc main_arg17)).trans (w4_arg17 m ρ c)
theorem w6_arg17 : W6 m ρ c (Proc.devRef .tc main_arg17) = m ((c : Thread nD τ).loc main_arg17) :=
  (W6_of_ne m ρ c main_arg17 (by decide)).trans (w5_arg17 m ρ c)
theorem w7_arg17 : W7 m ρ c (Proc.devRef .tc main_arg17) = m ((c : Thread nD τ).loc main_arg17) :=
  (by host_keeps : W7 m ρ c (Proc.devRef .tc main_arg17) = W6 m ρ c (Proc.devRef .tc main_arg17)).trans (w6_arg17 m ρ c)
theorem w1_arg18 : W1 m ρ c (Proc.devRef .tc main_arg18) = m ((c : Thread nD τ).loc main_arg18) :=
  (by host_keeps : W1 m ρ c (Proc.devRef .tc main_arg18) = W0 m ρ c (Proc.devRef .tc main_arg18)).trans rfl
theorem w2_arg18 : W2 m ρ c (Proc.devRef .tc main_arg18) = m ((c : Thread nD τ).loc main_arg18) :=
  (W2_of_ne m ρ c main_arg18 (by decide)).trans (w1_arg18 m ρ c)
theorem w3_arg18 : W3 m ρ c (Proc.devRef .tc main_arg18) = m ((c : Thread nD τ).loc main_arg18) :=
  (by host_keeps : W3 m ρ c (Proc.devRef .tc main_arg18) = W2 m ρ c (Proc.devRef .tc main_arg18)).trans (w2_arg18 m ρ c)
theorem w4_arg18 : W4 m ρ c (Proc.devRef .tc main_arg18) = m ((c : Thread nD τ).loc main_arg18) :=
  (W4_of_ne m ρ c main_arg18 (by decide)).trans (w3_arg18 m ρ c)
theorem w5_arg18 : W5 m ρ c (Proc.devRef .tc main_arg18) = m ((c : Thread nD τ).loc main_arg18) :=
  (by host_keeps : W5 m ρ c (Proc.devRef .tc main_arg18) = W4 m ρ c (Proc.devRef .tc main_arg18)).trans (w4_arg18 m ρ c)
theorem w6_arg18 : W6 m ρ c (Proc.devRef .tc main_arg18) = m ((c : Thread nD τ).loc main_arg18) :=
  (W6_of_ne m ρ c main_arg18 (by decide)).trans (w5_arg18 m ρ c)
theorem w7_arg18 : W7 m ρ c (Proc.devRef .tc main_arg18) = m ((c : Thread nD τ).loc main_arg18) :=
  (by host_keeps : W7 m ρ c (Proc.devRef .tc main_arg18) = W6 m ρ c (Proc.devRef .tc main_arg18)).trans (w6_arg18 m ρ c)
theorem w1_arg19 : W1 m ρ c (Proc.devRef .tc main_arg19) = m ((c : Thread nD τ).loc main_arg19) :=
  (by host_keeps : W1 m ρ c (Proc.devRef .tc main_arg19) = W0 m ρ c (Proc.devRef .tc main_arg19)).trans rfl
theorem w2_arg19 : W2 m ρ c (Proc.devRef .tc main_arg19) = m ((c : Thread nD τ).loc main_arg19) :=
  (W2_of_ne m ρ c main_arg19 (by decide)).trans (w1_arg19 m ρ c)
theorem w3_arg19 : W3 m ρ c (Proc.devRef .tc main_arg19) = m ((c : Thread nD τ).loc main_arg19) :=
  (by host_keeps : W3 m ρ c (Proc.devRef .tc main_arg19) = W2 m ρ c (Proc.devRef .tc main_arg19)).trans (w2_arg19 m ρ c)
theorem w4_arg19 : W4 m ρ c (Proc.devRef .tc main_arg19) = m ((c : Thread nD τ).loc main_arg19) :=
  (W4_of_ne m ρ c main_arg19 (by decide)).trans (w3_arg19 m ρ c)
theorem w5_arg19 : W5 m ρ c (Proc.devRef .tc main_arg19) = m ((c : Thread nD τ).loc main_arg19) :=
  (by host_keeps : W5 m ρ c (Proc.devRef .tc main_arg19) = W4 m ρ c (Proc.devRef .tc main_arg19)).trans (w4_arg19 m ρ c)
theorem w6_arg19 : W6 m ρ c (Proc.devRef .tc main_arg19) = m ((c : Thread nD τ).loc main_arg19) :=
  (W6_of_ne m ρ c main_arg19 (by decide)).trans (w5_arg19 m ρ c)
theorem w7_arg19 : W7 m ρ c (Proc.devRef .tc main_arg19) = m ((c : Thread nD τ).loc main_arg19) :=
  (by host_keeps : W7 m ρ c (Proc.devRef .tc main_arg19) = W6 m ρ c (Proc.devRef .tc main_arg19)).trans (w6_arg19 m ρ c)
theorem w1_arg20 : W1 m ρ c (Proc.devRef .tc main_arg20) = m ((c : Thread nD τ).loc main_arg20) :=
  (by host_keeps : W1 m ρ c (Proc.devRef .tc main_arg20) = W0 m ρ c (Proc.devRef .tc main_arg20)).trans rfl
theorem w2_arg20 : W2 m ρ c (Proc.devRef .tc main_arg20) = m ((c : Thread nD τ).loc main_arg20) :=
  (W2_of_ne m ρ c main_arg20 (by decide)).trans (w1_arg20 m ρ c)
theorem w3_arg20 : W3 m ρ c (Proc.devRef .tc main_arg20) = m ((c : Thread nD τ).loc main_arg20) :=
  (by host_keeps : W3 m ρ c (Proc.devRef .tc main_arg20) = W2 m ρ c (Proc.devRef .tc main_arg20)).trans (w2_arg20 m ρ c)
theorem w4_arg20 : W4 m ρ c (Proc.devRef .tc main_arg20) = m ((c : Thread nD τ).loc main_arg20) :=
  (W4_of_ne m ρ c main_arg20 (by decide)).trans (w3_arg20 m ρ c)
theorem w5_arg20 : W5 m ρ c (Proc.devRef .tc main_arg20) = m ((c : Thread nD τ).loc main_arg20) :=
  (by host_keeps : W5 m ρ c (Proc.devRef .tc main_arg20) = W4 m ρ c (Proc.devRef .tc main_arg20)).trans (w4_arg20 m ρ c)
theorem w6_arg20 : W6 m ρ c (Proc.devRef .tc main_arg20) = m ((c : Thread nD τ).loc main_arg20) :=
  (W6_of_ne m ρ c main_arg20 (by decide)).trans (w5_arg20 m ρ c)
theorem w7_arg20 : W7 m ρ c (Proc.devRef .tc main_arg20) = m ((c : Thread nD τ).loc main_arg20) :=
  (by host_keeps : W7 m ρ c (Proc.devRef .tc main_arg20) = W6 m ρ c (Proc.devRef .tc main_arg20)).trans (w6_arg20 m ρ c)
theorem w1_arg21 : W1 m ρ c (Proc.devRef .tc main_arg21) = m ((c : Thread nD τ).loc main_arg21) :=
  (by host_keeps : W1 m ρ c (Proc.devRef .tc main_arg21) = W0 m ρ c (Proc.devRef .tc main_arg21)).trans rfl
theorem w2_arg21 : W2 m ρ c (Proc.devRef .tc main_arg21) = m ((c : Thread nD τ).loc main_arg21) :=
  (W2_of_ne m ρ c main_arg21 (by decide)).trans (w1_arg21 m ρ c)
theorem w3_arg21 : W3 m ρ c (Proc.devRef .tc main_arg21) = m ((c : Thread nD τ).loc main_arg21) :=
  (by host_keeps : W3 m ρ c (Proc.devRef .tc main_arg21) = W2 m ρ c (Proc.devRef .tc main_arg21)).trans (w2_arg21 m ρ c)
theorem w4_arg21 : W4 m ρ c (Proc.devRef .tc main_arg21) = m ((c : Thread nD τ).loc main_arg21) :=
  (W4_of_ne m ρ c main_arg21 (by decide)).trans (w3_arg21 m ρ c)
theorem w5_arg21 : W5 m ρ c (Proc.devRef .tc main_arg21) = m ((c : Thread nD τ).loc main_arg21) :=
  (by host_keeps : W5 m ρ c (Proc.devRef .tc main_arg21) = W4 m ρ c (Proc.devRef .tc main_arg21)).trans (w4_arg21 m ρ c)
theorem w6_arg21 : W6 m ρ c (Proc.devRef .tc main_arg21) = m ((c : Thread nD τ).loc main_arg21) :=
  (W6_of_ne m ρ c main_arg21 (by decide)).trans (w5_arg21 m ρ c)
theorem w7_arg21 : W7 m ρ c (Proc.devRef .tc main_arg21) = m ((c : Thread nD τ).loc main_arg21) :=
  (by host_keeps : W7 m ρ c (Proc.devRef .tc main_arg21) = W6 m ρ c (Proc.devRef .tc main_arg21)).trans (w6_arg21 m ρ c)

/-- The first layer's result is not written between the first region and the second. -/
theorem w3_v19 : W3 m ρ c (Proc.devRef .tc main_v19) = W2 m ρ c (Proc.devRef .tc main_v19) := by host_keeps
/-- The second layer's result is not written between the second region and the third. -/
theorem w5_v39 : W5 m ρ c (Proc.devRef .tc main_v39) = W4 m ρ c (Proc.devRef .tc main_v39) := by host_keeps

end Cert.KernelIdeal.Walk

end
-- ==== Proof.Spec.lean ====
/-
  The mathematics of the network, one entry at a time, on the extended reals.

  A layer's entry (i, j) is  (sum over k of h(i,k) * Ws(k,j)  +  sum over k of a(i,k) * Wn(k,j))  +  b(j),
  where h is the node features' row i and a the row i of the neighbours' mean; the first two layers then take the
  maximum with zero.  The edge predictor is three such affine maps of one row of edge features, the first two
  followed by the maximum with zero, the last with a single output column.  Every entry depends on ONE row of the
  left operands only: this is why a row-tiled computation and a whole-array one agree, and why the predictor of two
  row-stacked inputs is the row-stack of the two predictors.
-/
import Idealize.ShloMosaic.Lib.ValueIdx
import Idealize.ShloMosaic.PureOps.Ideal

noncomputable section

namespace Cert.Sage

open Idealize.ShloMosaic Idealize.ShloMosaic.ValueIdx

/-- The float word of zero, read at the ideal instance (never evaluated: both programs carry the same word). -/
abbrev zero32 : EReal := Ideal.ofBits .f32 0x00000000#32

/-- Entry j of a layer before its nonlinearity, from row `hrow` of the features and row `arow` of the aggregate. -/
def layerEntry {K : ℕ} (hrow arow : Fin K → EReal) (Ws Wn : (⟨2, ![K, 256]⟩ : Shape).Idx → EReal)
    (b : (⟨1, ![256]⟩ : Shape).Idx → EReal) (j : Fin 256) : EReal :=
  (∑ k : Fin K, hrow k * Ws (ix2 k j) + ∑ k : Fin K, arow k * Wn (ix2 k j)) + b (ix1 j)

/-- Entry j of one hidden stage of the predictor: an affine map of a row, then the maximum with zero. -/
def hidden {K : ℕ} (row : Fin K → EReal) (W : (⟨2, ![K, 256]⟩ : Shape).Idx → EReal)
    (b : (⟨1, ![256]⟩ : Shape).Idx → EReal) (j : Fin 256) : EReal :=
  max (∑ k : Fin K, row k * W (ix2 k j) + b (ix1 j)) zero32

/-- The predictor's one output for a row of edge features. -/
def predEntry (row : Fin 256 → EReal) (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 1]⟩ : Shape).Idx → EReal) (b3 : (⟨1, ![1]⟩ : Shape).Idx → EReal) (u : Fin 1) : EReal :=
  ∑ k : Fin 256, hidden (hidden row W1 b1) W2 b2 k * W3 (ix2 k u) + b3 (ix1 u)

/-- A whole layer with the maximum with zero: the array whose entry (i, j) is the layer's entry of rows i. -/
def layerRelu {N K : ℕ} (h a : (⟨2, ![N, K]⟩ : Shape).Idx → EReal) (Ws Wn : (⟨2, ![K, 256]⟩ : Shape).Idx → EReal)
    (b : (⟨1, ![256]⟩ : Shape).Idx → EReal) : (⟨2, ![N, 256]⟩ : Shape).Idx → EReal :=
  fun i => max (layerEntry (fun k => h (ix2 ⟨(i 0).val, (i 0).isLt⟩ k)) (fun k => a (ix2 ⟨(i 0).val, (i 0).isLt⟩ k)) Ws Wn b
    ⟨(i 1).val, (i 1).isLt⟩) zero32

/-- A whole layer without nonlinearity. -/
def layerLin {N K : ℕ} (h a : (⟨2, ![N, K]⟩ : Shape).Idx → EReal) (Ws Wn : (⟨2, ![K, 256]⟩ : Shape).Idx → EReal)
    (b : (⟨1, ![256]⟩ : Shape).Idx → EReal) : (⟨2, ![N, 256]⟩ : Shape).Idx → EReal :=
  fun i => layerEntry (fun k => h (ix2 ⟨(i 0).val, (i 0).isLt⟩ k)) (fun k => a (ix2 ⟨(i 0).val, (i 0).isLt⟩ k)) Ws Wn b
    ⟨(i 1).val, (i 1).isLt⟩

/-- The predictor applied to every row of a matrix of edge features. -/
def predArr {N : ℕ} (e : (⟨2, ![N, 256]⟩ : Shape).Idx → EReal) (W1 : (⟨2, ![256, 256]⟩ : Shape).Idx → EReal)
    (b1 : (⟨1, ![256]⟩ : Shape).Idx → EReal) (W2 : (⟨2, ![256, 256]⟩ : Shape).Idx → EReal) (b2 : (⟨1, ![256]⟩ : Shape).Idx → EReal)
    (W3 : (⟨2, ![256, 1]⟩ : Shape).Idx → EReal) (b3 : (⟨1, ![1]⟩ : Shape).Idx → EReal) : (⟨2, ![N, 1]⟩ : Shape).Idx → EReal :=
  fun i => predEntry (fun k => e (ix2 ⟨(i 0).val, (i 0).isLt⟩ k)) W1 b1 W2 b2 W3 b3 ⟨(i 1).val, (i 1).isLt⟩

theorem layerRelu_ix2 {N K : ℕ} (h a : (⟨2, ![N, K]⟩ : Shape).Idx → EReal) (Ws Wn : (⟨2, ![K, 256]⟩ : Shape).Idx → EReal)
    (b : (⟨1, ![256]⟩ : Shape).Idx → EReal) (p : Fin N) (q : Fin 256) :
    layerRelu h a Ws Wn b (ix2 p q) = max (layerEntry (fun k => h (ix2 p k)) (fun k => a (ix2 p k)) Ws Wn b q) zero32 := rfl

theorem layerLin_ix2 {N K : ℕ} (h a : (⟨2, ![N, K]⟩ : Shape).Idx → EReal) (Ws Wn : (⟨2, ![K, 256]⟩ : Shape).Idx → EReal)
    (b : (⟨1, ![256]⟩ : Shape).Idx → EReal) (p : Fin N) (q : Fin 256) :
    layerLin h a Ws Wn b (ix2 p q) = layerEntry (fun k => h (ix2 p k)) (fun k => a (ix2 p k)) Ws Wn b q := rfl

theorem predArr_ix2 {N : ℕ} (e : (⟨2, ![N, 256]⟩ : Shape).Idx → EReal) (W1 : (⟨2, ![256, 256]⟩ : Shape).Idx → EReal)
    (b1 : (⟨1, ![256]⟩ : Shape).Idx → EReal) (W2 : (⟨2, ![256, 256]⟩ : Shape).Idx → EReal) (b2 : (⟨1, ![256]⟩ : Shape).Idx → EReal)
    (W3 : (⟨2, ![256, 1]⟩ : Shape).Idx → EReal) (b3 : (⟨1, ![1]⟩ : Shape).Idx → EReal) (p : Fin N) (u : Fin 1) :
    predArr e W1 b1 W2 b2 W3 b3 (ix2 p u) = predEntry (fun k => e (ix2 p k)) W1 b1 W2 b2 W3 b3 u := rfl

end Cert.Sage

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.LibRowReshape.lean ====
/-
  A vector [b] reshaped to a one-row matrix [1, b], read at an index written by coordinates: the row's entry j is the
  vector's entry j.  General lemma: any element type, any extent.
-/
import Idealize.ShloMosaic.Lib.Pipeline.Value
import Idealize.ShloMosaic.Lib.ValueIdx

namespace Cert.LibRowReshape

open Idealize.ShloMosaic Idealize.ShloMosaic.ValueIdx

/-- A vector reshaped to a one-row matrix reads, at (0, j), the vector's entry j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu]
    omega)

end Cert.LibRowReshape
-- ==== Proof.KPayload.lean ====
/-
  What each kernel body stores, one entry at a time, at the ideal instance.

  At the ideal instance a change of float format is the identity and a matrix product into a zero accumulator is the
  plain sum of products, so the stored tile of a layer kernel has at (p, q) the layer's entry of row p of the two left
  tiles, and the stored tile of the predictor kernel has at (p, 0) the predictor's output for row p of the edge tile.
-/
import proofs.«145438_j62165356642855_1_alg».proof.Proof.Gen.KernelIdeal.Skeleton
import proofs.«145438_j62165356642855_1_alg».proof.Proof.Spec
import proofs.«145438_j62165356642855_1_alg».proof.Proof.LibPlainDot
import proofs.«145438_j62165356642855_1_alg».proof.Proof.LibRowBroadcast
import proofs.«145438_j62165356642855_1_alg».proof.Proof.LibRowReshape
import Idealize.ShloMosaic.Lib.ValueIdx
import Idealize.ShloMosaic.Lib.Pipeline.Value

noncomputable section

namespace Cert.KernelIdeal.Payload

open Idealize.ShloMosaic Idealize.ShloMosaic.ValueIdx Cert.KernelIdeal Cert.KernelIdeal.Gen Cert.Sage
open Cert.PlainDot Cert.LibRowBroadcast Cert.LibRowReshape

/-- The bias vector, reshaped to a row and repeated down the rows of a tile, reads at (p, q) its entry q. -/
theorem bias_at {a b : ℕ} (v : (⟨1, ![b]⟩ : Shape).Idx → EReal) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) := by
  rw [broadcastTo_1b_ab_apply, shapeCast_b_1b_apply]

/-- The first layer's stored tile at (p, q). -/
theorem pay0_at (v0 v2 : Vec Ideal S2000x128 .f32) (v5 v7 : Vec Ideal S128x256 .f32) (v12 : Vec Ideal S256 .f32)
    (p : Fin 2000) (q : Fin 256) :
    k0_pay1 (F := Ideal) v0 v2 v5 v7 v12 (ix2 p q)
      = max (layerEntry (fun k => v0 (ix2 p k)) (fun k => v2 (ix2 p k)) v5 v7 v12 q) zero32 := by
  unfold k0_pay1
  rw [maximumf_apply, addf_apply, addf_apply, broadcast_apply, bias_at,
    matmul_zero_ix2 dot_S2000x128_S128x256_S2000x256_1_0_0_1_n_n rfl, matmul_zero_ix2 dot_S2000x128_S128x256_S2000x256_1_0_0_1_n_n rfl, shapeCast_self]
  rfl

/-- The second layer's stored tile at (p, q). -/
theorem pay1_at (v0 v3 : Vec Ideal S2000x256 .f32) (v6 v8 : Vec Ideal S256x256 .f32) (v13 : Vec Ideal S256 .f32)
    (p : Fin 2000) (q : Fin 256) :
    k1_pay1 (F := Ideal) v0 v3 v6 v8 v13 (ix2 p q)
      = max (layerEntry (fun k => v0 (ix2 p k)) (fun k => v3 (ix2 p k)) v6 v8 v13 q) zero32 := by
  unfold k1_pay1
  rw [maximumf_apply, addf_apply, addf_apply, broadcast_apply, bias_at,
    matmul_zero_ix2 dot_S2000x256_S256x256_S2000x256_1_0_0_1_n_n rfl, matmul_zero_ix2 dot_S2000x256_S256x256_S2000x256_1_0_0_1_n_n rfl, shapeCast_self, shapeCast_self]
  rfl

/-- The third layer's stored tile at (p, q): no maximum with zero. -/
theorem pay2_at (v0 v3 : Vec Ideal S2000x256 .f32) (v6 v8 : Vec Ideal S256x256 .f32) (v13 : Vec Ideal S256 .f32)
    (p : Fin 2000) (q : Fin 256) :
    k2_pay1 (F := Ideal) v0 v3 v6 v8 v13 (ix2 p q)
      = layerEntry (fun k => v0 (ix2 p k)) (fun k => v3 (ix2 p k)) v6 v8 v13 q := by
  unfold k2_pay1
  rw [addf_apply, addf_apply, bias_at,
    matmul_zero_ix2 dot_S2000x256_S256x256_S2000x256_1_0_0_1_n_n rfl, matmul_zero_ix2 dot_S2000x256_S256x256_S2000x256_1_0_0_1_n_n rfl, shapeCast_self, shapeCast_self]
  rfl

/-- One hidden stage of the predictor's tile at (p, j): the product with the stage's weights, the bias, the maximum with
    zero; the change of float format after it is the identity. -/
theorem hidden_at {K : ℕ} (D : DotDims ⟨2, ![2000, K]⟩ ⟨2, ![K, 256]⟩ ⟨2, ![2000, 256]⟩) (hD : D = DotDims.plain 2000 K 256)
    (l : FVec Ideal ⟨2, ![2000, K]⟩ .bf16) (w : FVec Ideal ⟨2, ![K, 256]⟩ .bf16) (b : (⟨1, ![256]⟩ : Shape).Idx → EReal)
    (h1 : (⟨1, ![256]⟩ : Shape).ShapeCasts ⟨2, ![1, 256]⟩) (h2 : (⟨2, ![1, 256]⟩ : Shape).Broadcasts ⟨2, ![2000, 256]⟩)
    (p : Fin 2000) (j : Fin 256) :
    maximumf (addf (matmul D none l w (constant (F := Ideal) ⟨2, ![2000, 256]⟩ .f32 0x00000000#32))
        (broadcastTo ⟨2, ![2000, 256]⟩ (shapeCast ⟨2, ![1, 256]⟩ b h1) h2))
      (broadcast ⟨2, ![2000, 256]⟩ (Scalar.ofBits (F := Ideal) .f32 0x00000000#32)) (ix2 p j)
      = hidden (fun k => l (ix2 p k)) w b j := by
  rw [maximumf_apply, addf_apply, broadcast_apply, bias_at, matmul_zero_ix2 D hD]
  rfl

/-- The predictor's stored tile at (p, 0). -/
theorem pay3_at (v0 : Vec Ideal S2000x256 .f32) (v3 : Vec Ideal S256x256 .f32) (v6 : Vec Ideal S256 .f32)
    (v13 : Vec Ideal S256x256 .f32) (v16 : Vec Ideal S256 .f32) (v23 : Vec Ideal S256x1 .f32) (v26 : Vec Ideal S1 .f32)
    (p : Fin 2000) (u : Fin 1) :
    k3_pay1 (F := Ideal) v0 v3 v6 v13 v16 v23 v26 (ix2 p u)
      = predEntry (fun k => v0 (ix2 p k)) v3 v6 v13 v16 v23 v26 u := by
  unfold k3_pay1
  rw [addf_apply, bias_at, matmul_zero_ix2 dot_S2000x256_S256x1_S2000x1_1_0_0_1_n_n rfl]
  unfold predEntry
  refine congrArg (· + _) (Finset.sum_congr rfl fun k2 _ => congrArg (· * _) ?_)
  refine (hidden_at dot_S2000x256_S256x256_S2000x256_1_0_0_1_n_n rfl _ _ v16 _ _ p k2).trans ?_
  refine congrArg (fun r => hidden r v13 v16 k2) (funext fun k1 => ?_)
  refine (hidden_at dot_S2000x256_S256x256_S2000x256_1_0_0_1_n_n rfl _ _ v6 _ _ p k1).trans ?_
  rw [shapeCast_self]
  rfl

end Cert.KernelIdeal.Payload

end
-- ==== Proof.KBlocks0.lean ====
/-
  Region 0 (a graph layer's linear part and its maximum with zero) as one whole-array function.

  The region's grid has 25 points; point t reads rows 2000 t … 2000 t + 1999 of the feature array and of the aggregate
  array, the two weight matrices and the bias whole, and writes back rows 2000 t … 2000 t + 1999 of the result.  Since
  an entry of the layer depends on one row of the two left operands only, the tile point t writes is rows
  2000 t … of the layer of the WHOLE arrays; the 25 tiles cover the result, so the result array ends as that layer.
-/
import proofs.«145438_j62165356642855_1_alg».proof.Proof.Gen.KernelIdeal.Frame
import proofs.«145438_j62165356642855_1_alg».proof.Proof.KPayload
import Idealize.ShloMosaic.Lib.Pipeline.Value
import Idealize.ShloMosaic.Lib.ValueIdx

set_option maxRecDepth 16384

noncomputable section

namespace Cert.KernelIdeal.Blocks0

open Cert.KernelIdeal Cert.KernelIdeal.Gen Cert.KernelIdeal.Payload Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-tiled inputs and the output are at block row t, column block
    0; the weights and the bias are always at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem row_lt (t : Fin cfg0.N) (p : Fin 2000) : 2000 * t.val + p.val < 50000 := by
  have h1 := t.isLt
  have hN : cfg0.N = 25 := N_0
  have h2 := p.isLt
  omega

/-- Row p of the feature tile at point t is row 2000 t + p of the feature array. -/
theorem tile_h (c : Dev nD) (t : Fin cfg0.N) (p : Fin 2000) (k : Fin 128) :
    (iblk0 V c 0 t : Vec Ideal S2000x128 .f32) (ix2 p k)
      = (V c main_arg0 : S50000x128.Idx → EReal) (ix2 ⟨2000 * t.val + p.val, row_lt t p⟩ k) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- Row p of the aggregate tile at point t is row 2000 t + p of the aggregate array. -/
theorem tile_a (c : Dev nD) (t : Fin cfg0.N) (p : Fin 2000) (k : Fin 128) :
    (iblk0 V c 1 t : Vec Ideal S2000x128 .f32) (ix2 p k)
      = (V c main_v18 : S50000x128.Idx → EReal) (ix2 ⟨2000 * t.val + p.val, row_lt t p⟩ k) := by
  obtain ⟨-, -, e0, e1, -⟩ := idx_facts t
  unfold iblk0
  rw [View.read_apply]
  show V c main_v18 _ = V c main_v18 _
  refine congrArg _ (funext fun a => Fin.ext ?_)
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

/-- The first weight matrix is staged whole at every point. -/
theorem tile_ws (c : Dev nD) (t : Fin cfg0.N) :
    (iblk0 V c 2 t : Vec Ideal S128x256 .f32) = (V c main_arg7 : S128x256.Idx → EReal) := by
  obtain ⟨-, -, -, -, e0, e1, -⟩ := idx_facts t
  funext y
  unfold iblk0
  rw [View.read_apply]
  show V c main_arg7 _ = V c main_arg7 _
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 256 + 1 * (y 1).val = (y 1).val; rw [e1]; omega

/-- The second weight matrix is staged whole at every point. -/
theorem tile_wn (c : Dev nD) (t : Fin cfg0.N) :
    (iblk0 V c 3 t : Vec Ideal S128x256 .f32) = (V c main_arg8 : S128x256.Idx → EReal) := by
  obtain ⟨-, -, -, -, -, -, e0, e1, -⟩ := idx_facts t
  funext y
  unfold iblk0
  rw [View.read_apply]
  show V c main_arg8 _ = V c main_arg8 _
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- The bias is staged whole at every point. -/
theorem tile_b (c : Dev nD) (t : Fin cfg0.N) :
    (iblk0 V c 4 t : Vec Ideal S256 .f32) = (V c main_arg9 : S256.Idx → EReal) := by
  obtain ⟨-, -, -, -, -, -, -, -, e0, -⟩ := idx_facts t
  funext y
  unfold iblk0
  rw [View.read_apply]
  show V c main_arg9 _ = V c main_arg9 _
  refine congrArg _ (funext fun a => Fin.ext ?_)
  match a with
  | ⟨0, _⟩ => show win0_4.index t (0 : Fin 1) * 256 + 1 * (y 0).val = (y 0).val; rw [e0]; omega

/-- The layer of the whole arrays as the region finds them. -/
def whole (c : Dev nD) : S50000x256.Idx → EReal :=
  layerRelu (V c main_arg0 : S50000x128.Idx → EReal) (V c main_v18 : S50000x128.Idx → EReal) (V c main_arg7 : S128x256.Idx → EReal)
    (V c main_arg8 : S128x256.Idx → EReal) (V c main_arg9 : S256.Idx → EReal)

/-- What the body stores at point t, at (p, q): the layer's entry (2000 t + p, q) of the whole arrays. -/
theorem stored_at (c : Dev nD) (t : Fin cfg0.N) (p : Fin 2000) (q : Fin 256) :
    k0_pay1 (F := Ideal) (iblk0 V c 0 t) (iblk0 V c 1 t) (iblk0 V c 2 t) (iblk0 V c 3 t) (iblk0 V c 4 t) (ix2 p q)
      = whole V c (ix2 ⟨2000 * t.val + p.val, row_lt t p⟩ q) := by
  refine (pay0_at (iblk0 V c 0 t) (iblk0 V c 1 t) (iblk0 V c 2 t) (iblk0 V c 3 t) (iblk0 V c 4 t) p q).trans ?_
  unfold whole
  rw [layerRelu_ix2]
  simp only [tile_h V c t p, tile_a V c t p, tile_ws V c t, tile_wn V c t, tile_b V c t]

/-- What point t writes back is block t of the layer of the whole arrays. -/
theorem flushed_eq (c : Dev nD) (t : Fin cfg0.N) :
    (dat0 V c).flushed 5 t = ((cfg0.win 5).blk t).view.read (Elt Ideal) (whole V c) := by
  obtain ⟨-, -, -, -, -, -, -, -, -, e0, e1⟩ := idx_facts t
  show (cfg0.win 5).cut (grid0.coords t) ((dat0 V c).after 5 t) = _
  rw [after0_5]
  unfold out0_5
  rw [View.canon_unit_zero hz2]
  simp only [View.ld_unit_zero (S := S2000x128) hz2, View.ld_unit_zero (S := S128x256) hz2, View.ld_unit_zero (S := S256) hz1]
  funext j
  obtain ⟨p, q, rfl⟩ : ∃ (p : Fin 2000) (q : Fin 256), j = ix2 p q := ⟨j 0, j 1, eq_ix2 j⟩
  refine (stored_at V c t p q).trans ?_
  show whole V c _ = whole V c (((cfg0.win 5).blk t).view.emb (ix2 p q))
  refine congrArg _ (funext fun a => Fin.ext ?_)
  match a with
  | ⟨0, _⟩ => show 2000 * t.val + p.val = win0_5.index t (0 : Fin 2) * 2000 + 1 * p.val; rw [e0]; omega
  | ⟨1, _⟩ => show q.val = win0_5.index t (1 : Fin 2) * 256 + 1 * q.val; rw [e1]; omega

/-- An index of the result array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v19).slice (win0_5.rect t)).set ↔ _
  rw [View.set_slice_whole, Rect.mem_set_unit]
  exact Iff.rfl

/-- Row r of the result is in the block of point r / 2000. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  have ht : (i 0).val / 2000 < cfg0.N := by omega
  obtain ⟨-, -, -, -, -, -, -, -, -, e0, e1⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    rw [e1]
    omega

/-- The result array after the region: the layer of the whole arrays as the region finds them. -/
theorem arr_eq (c : Dev nD) : (dat0 V c).arrAt 5 cfg0.N = whole V c :=
  (dat0 V c).arrAt_eq_of_cover 5 (whole V c) (fun t _ => flushed_eq V c t) cover

end Cert.KernelIdeal.Blocks0

end
-- ==== Proof.KBlocks1.lean ====
/-
  Region 1 (a graph layer's linear part and its maximum with zero) as one whole-array function.

  The region's grid has 25 points; point t reads rows 2000 t … 2000 t + 1999 of the feature array and of the aggregate
  array, the two weight matrices and the bias whole, and writes back rows 2000 t … 2000 t + 1999 of the result.  Since
  an entry of the layer depends on one row of the two left operands only, the tile point t writes is rows
  2000 t … of the layer of the WHOLE arrays; the 25 tiles cover the result, so the result array ends as that layer.
-/
import proofs.«145438_j62165356642855_1_alg».proof.Proof.Gen.KernelIdeal.Frame
import proofs.«145438_j62165356642855_1_alg».proof.Proof.KPayload
import Idealize.ShloMosaic.Lib.Pipeline.Value
import Idealize.ShloMosaic.Lib.ValueIdx

set_option maxRecDepth 16384

noncomputable section

namespace Cert.KernelIdeal.Blocks1

open Cert.KernelIdeal Cert.KernelIdeal.Gen Cert.KernelIdeal.Payload Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-tiled inputs and the output are at block row t, column block
    0; the weights and the bias are always at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem row_lt (t : Fin cfg1.N) (p : Fin 2000) : 2000 * t.val + p.val < 50000 := by
  have h1 := t.isLt
  have hN : cfg1.N = 25 := N_1
  have h2 := p.isLt
  omega

/-- Row p of the feature tile at point t is row 2000 t + p of the feature array. -/
theorem tile_h (c : Dev nD) (t : Fin cfg1.N) (p : Fin 2000) (k : Fin 256) :
    (iblk1 V c 0 t : Vec Ideal S2000x256 .f32) (ix2 p k)
      = (V c main_v19 : S50000x256.Idx → EReal) (ix2 ⟨2000 * t.val + p.val, row_lt t p⟩ k) := by
  obtain ⟨e0, e1, -⟩ := idx_facts t
  unfold iblk1
  rw [View.read_apply]
  show V c main_v19 _ = V c main_v19 _
  refine congrArg _ (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 256 + 1 * k.val = k.val; rw [e1]; omega

/-- Row p of the aggregate tile at point t is row 2000 t + p of the aggregate array. -/
theorem tile_a (c : Dev nD) (t : Fin cfg1.N) (p : Fin 2000) (k : Fin 256) :
    (iblk1 V c 1 t : Vec Ideal S2000x256 .f32) (ix2 p k)
      = (V c main_v38 : S50000x256.Idx → EReal) (ix2 ⟨2000 * t.val + p.val, row_lt t p⟩ k) := by
  obtain ⟨-, -, e0, e1, -⟩ := idx_facts t
  unfold iblk1
  rw [View.read_apply]
  show V c main_v38 _ = V c main_v38 _
  refine congrArg _ (funext fun a => Fin.ext ?_)
  match a with
  | ⟨0, _⟩ => show win1_1.index t (0 : Fin 2) * 2000 + 1 * p.val = 2000 * t.val + p.val; rw [e0]; omega
  | ⟨1, _⟩ => show win1_1.index t (1 : Fin 2) * 256 + 1 * k.val = k.val; rw [e1]; omega

/-- The first weight matrix is staged whole at every point. -/
theorem tile_ws (c : Dev nD) (t : Fin cfg1.N) :
    (iblk1 V c 2 t : Vec Ideal S256x256 .f32) = (V c main_arg10 : S256x256.Idx → EReal) := by
  obtain ⟨-, -, -, -, e0, e1, -⟩ := idx_facts t
  funext y
  unfold iblk1
  rw [View.read_apply]
  show V c main_arg10 _ = V c main_arg10 _
  refine congrArg _ (funext fun a => Fin.ext ?_)
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- The second weight matrix is staged whole at every point. -/
theorem tile_wn (c : Dev nD) (t : Fin cfg1.N) :
    (iblk1 V c 3 t : Vec Ideal S256x256 .f32) = (V c main_arg11 : S256x256.Idx → EReal) := by
  obtain ⟨-, -, -, -, -, -, e0, e1, -⟩ := idx_facts t
  funext y
  unfold iblk1
  rw [View.read_apply]
  show V c main_arg11 _ = V c main_arg11 _
  refine congrArg _ (funext fun a => Fin.ext ?_)
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- The bias is staged whole at every point. -/
theorem tile_b (c : Dev nD) (t : Fin cfg1.N) :
    (iblk1 V c 4 t : Vec Ideal S256 .f32) = (V c main_arg12 : S256.Idx → EReal) := by
  obtain ⟨-, -, -, -, -, -, -, -, e0, -⟩ := idx_facts t
  funext y
  unfold iblk1
  rw [View.read_apply]
  show V c main_arg12 _ = V c main_arg12 _
  refine congrArg _ (funext fun a => Fin.ext ?_)
  match a with
  | ⟨0, _⟩ => show win1_4.index t (0 : Fin 1) * 256 + 1 * (y 0).val = (y 0).val; rw [e0]; omega

/-- The layer of the whole arrays as the region finds them. -/
def whole (c : Dev nD) : S50000x256.Idx → EReal :=
  layerRelu (V c main_v19 : S50000x256.Idx → EReal) (V c main_v38 : S50000x256.Idx → EReal) (V c main_arg10 : S256x256.Idx → EReal)
    (V c main_arg11 : S256x256.Idx → EReal) (V c main_arg12 : S256.Idx → EReal)

/-- What the body stores at point t, at (p, q): the layer's entry (2000 t + p, q) of the whole arrays. -/
theorem stored_at (c : Dev nD) (t : Fin cfg1.N) (p : Fin 2000) (q : Fin 256) :
    k1_pay1 (F := Ideal) (iblk1 V c 0 t) (iblk1 V c 1 t) (iblk1 V c 2 t) (iblk1 V c 3 t) (iblk1 V c 4 t) (ix2 p q)
      = whole V c (ix2 ⟨2000 * t.val + p.val, row_lt t p⟩ q) := by
  refine (pay1_at (iblk1 V c 0 t) (iblk1 V c 1 t) (iblk1 V c 2 t) (iblk1 V c 3 t) (iblk1 V c 4 t) p q).trans ?_
  unfold whole
  rw [layerRelu_ix2]
  simp only [tile_h V c t p, tile_a V c t p, tile_ws V c t, tile_wn V c t, tile_b V c t]

/-- What point t writes back is block t of the layer of the whole arrays. -/
theorem flushed_eq (c : Dev nD) (t : Fin cfg1.N) :
    (dat1 V c).flushed 5 t = ((cfg1.win 5).blk t).view.read (Elt Ideal) (whole V c) := by
  obtain ⟨-, -, -, -, -, -, -, -, -, e0, e1⟩ := idx_facts t
  show (cfg1.win 5).cut (grid1.coords t) ((dat1 V c).after 5 t) = _
  rw [after1_5]
  unfold out1_5
  rw [View.canon_unit_zero hz2]
  simp only [View.ld_unit_zero (S := S2000x256) hz2, View.ld_unit_zero (S := S256x256) hz2, View.ld_unit_zero (S := S256) hz1]
  funext j
  obtain ⟨p, q, rfl⟩ : ∃ (p : Fin 2000) (q : Fin 256), j = ix2 p q := ⟨j 0, j 1, eq_ix2 j⟩
  refine (stored_at V c t p q).trans ?_
  show whole V c _ = whole V c (((cfg1.win 5).blk t).view.emb (ix2 p q))
  refine congrArg _ (funext fun a => Fin.ext ?_)
  match a with
  | ⟨0, _⟩ => show 2000 * t.val + p.val = win1_5.index t (0 : Fin 2) * 2000 + 1 * p.val; rw [e0]; omega
  | ⟨1, _⟩ => show q.val = win1_5.index t (1 : Fin 2) * 256 + 1 * q.val; rw [e1]; omega

/-- An index of the result array is in point t's block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v39).slice (win1_5.rect t)).set ↔ _
  rw [View.set_slice_whole, Rect.mem_set_unit]
  exact Iff.rfl

/-- Row r of the result is in the block of point r / 2000. -/
theorem cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  have ht : (i 0).val / 2000 < cfg1.N := by omega
  obtain ⟨-, -, -, -, -, -, -, -, -, e0, e1⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, ht⟩ (1 : Fin 2) * 256 ≤ (i 1).val ∧ (i 1).val < win1_5.index ⟨(i 0).val / 2000, ht⟩ (1 : Fin 2) * 256 + 256
    rw [e1]
    omega

/-- The result array after the region: the layer of the whole arrays as the region finds them. -/
theorem arr_eq (c : Dev nD) : (dat1 V c).arrAt 5 cfg1.N = whole V c :=
  (dat1 V c).arrAt_eq_of_cover 5 (whole V c) (fun t _ => flushed_eq V c t) cover

end Cert.KernelIdeal.Blocks1

end
-- ==== Proof.KBlocks2.lean ====
/-
  Region 2 (a graph layer's linear part) as one whole-array function.

  The region's grid has 25 points; point t reads rows 2000 t … 2000 t + 1999 of the feature array and of the aggregate
  array, the two weight matrices and the bias whole, and writes back rows 2000 t … 2000 t + 1999 of the result.  Since
  an entry of the layer depends on one row of the two left operands only, the tile point t writes is rows
  2000 t … of the layer of the WHOLE arrays; the 25 tiles cover the result, so the result array ends as that layer.
-/
import proofs.«145438_j62165356642855_1_alg».proof.Proof.Gen.KernelIdeal.Frame
import proofs.«145438_j62165356642855_1_alg».proof.Proof.KPayload
import Idealize.ShloMosaic.Lib.Pipeline.Value
import Idealize.ShloMosaic.Lib.ValueIdx

set_option maxRecDepth 16384

noncomputable section

namespace Cert.KernelIdeal.Blocks2

open Cert.KernelIdeal Cert.KernelIdeal.Gen Cert.KernelIdeal.Payload Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two row-tiled inputs and the output are at block row t, column block
    0; the weights and the bias are always at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

theorem row_lt (t : Fin cfg2.N) (p : Fin 2000) : 2000 * t.val + p.val < 50000 := by
  have h1 := t.isLt
  have hN : cfg2.N = 25 := N_2
  have h2 := p.isLt
  omega

/-- Row p of the feature tile at point t is row 2000 t + p of the feature array. -/
theorem tile_h (c : Dev nD) (t : Fin cfg2.N) (p : Fin 2000) (k : Fin 256) :
    (iblk2 V c 0 t : Vec Ideal S2000x256 .f32) (ix2 p k)
      = (V c main_v39 : S50000x256.Idx → EReal) (ix2 ⟨2000 * t.val + p.val, row_lt t p⟩ k) := by
  obtain ⟨e0, e1, -⟩ := idx_facts t
  unfold iblk2
  rw [View.read_apply]
  show V c main_v39 _ = V c main_v39 _
  refine congrArg _ (funext fun a => Fin.ext ?_)
  match a with
  | ⟨0, _⟩ => show win2_0.index t (0 : Fin 2) * 2000 + 1 * p.val = 2000 * t.val + p.val; rw [e0]; omega
  | ⟨1, _⟩ => show win2_0.index t (1 : Fin 2) * 256 + 1 * k.val = k.val; rw [e1]; omega

/-- Row p of the aggregate tile at point t is row 2000 t + p of the aggregate array. -/
theorem tile_a (c : Dev nD) (t : Fin cfg2.N) (p : Fin 2000) (k : Fin 256) :
    (iblk2 V c 1 t : Vec Ideal S2000x256 .f32) (ix2 p k)
      = (V c main_v58 : S50000x256.Idx → EReal) (ix2 ⟨2000 * t.val + p.val, row_lt t p⟩ k) := by
  obtain ⟨-, -, e0, e1, -⟩ := idx_facts t
  unfold iblk2
  rw [View.read_apply]
  show V c main_v58 _ = V c main_v58 _
  refine congrArg _ (funext fun a => Fin.ext ?_)
  match a with
  | ⟨0, _⟩ => show win2_1.index t (0 : Fin 2) * 2000 + 1 * p.val = 2000 * t.val + p.val; rw [e0]; omega
  | ⟨1, _⟩ => show win2_1.index t (1 : Fin 2) * 256 + 1 * k.val = k.val; rw [e1]; omega

/-- The first weight matrix is staged whole at every point. -/
theorem tile_ws (c : Dev nD) (t : Fin cfg2.N) :
    (iblk2 V c 2 t : Vec Ideal S256x256 .f32) = (V c main_arg13 : S256x256.Idx → EReal) := by
  obtain ⟨-, -, -, -, e0, e1, -⟩ := idx_facts t
  funext y
  unfold iblk2
  rw [View.read_apply]
  show V c main_arg13 _ = V c main_arg13 _
  refine congrArg _ (funext fun a => Fin.ext ?_)
  match a with
  | ⟨0, _⟩ => show win2_2.index t (0 : Fin 2) * 256 + 1 * (y 0).val = (y 0).val; rw [e0]; omega
  | ⟨1, _⟩ => show win2_2.index t (1 : Fin 2) * 256 + 1 * (y 1).val = (y 1).val; rw [e1]; omega

/-- The second weight matrix is staged whole at every point. -/
theorem tile_wn (c : Dev nD) (t : Fin cfg2.N) :
    (iblk2 V c 3 t : Vec Ideal S256x256 .f32) = (V c main_arg14 : S256x256.Idx → EReal) := by
  obtain ⟨-, -, -, -, -, -, e0, e1, -⟩ := idx_facts t
  funext y
  unfold iblk2
  rw [View.read_apply]
  show V c main_arg14 _ = V c main_arg14 _
  refine congrArg _ (funext fun a => Fin.ext ?_)
  match a with
  | ⟨0, _⟩ => show win2_3.index t (0 : Fin 2) * 256 + 1 * (y 0).val = (y 0).val; rw [e0]; omega
  | ⟨1, _⟩ => show win2_3.index t (1 : Fin 2) * 256 + 1 * (y 1).val = (y 1).val; rw [e1]; omega

/-- The bias is staged whole at every point. -/
theorem tile_b (c : Dev nD) (t : Fin cfg2.N) :
    (iblk2 V c 4 t : Vec Ideal S256 .f32) = (V c main_arg15 : S256.Idx → EReal) := by
  obtain ⟨-, -, -, -, -, -, -, -, e0, -⟩ := idx_facts t
  funext y
  unfold iblk2
  rw [View.read_apply]
  show V c main_arg15 _ = V c main_arg15 _
  refine congrArg _ (funext fun a => Fin.ext ?_)
  match a with
  | ⟨0, _⟩ => show win2_4.index t (0 : Fin 1) * 256 + 1 * (y 0).val = (y 0).val; rw [e0]; omega

/-- The layer of the whole arrays as the region finds them. -/
def whole (c : Dev nD) : S50000x256.Idx → EReal :=
  layerLin (V c main_v39 : S50000x256.Idx → EReal) (V c main_v58 : S50000x256.Idx → EReal) (V c main_arg13 : S256x256.Idx → EReal)
    (V c main_arg14 : S256x256.Idx → EReal) (V c main_arg15 : S256.Idx → EReal)

/-- What the body stores at point t, at (p, q): the layer's entry (2000 t + p, q) of the whole arrays. -/
theorem stored_at (c : Dev nD) (t : Fin cfg2.N) (p : Fin 2000) (q : Fin 256) :
    k2_pay1 (F := Ideal) (iblk2 V c 0 t) (iblk2 V c 1 t) (iblk2 V c 2 t) (iblk2 V c 3 t) (iblk2 V c 4 t) (ix2 p q)
      = whole V c (ix2 ⟨2000 * t.val + p.val, row_lt t p⟩ q) := by
  refine (pay2_at (iblk2 V c 0 t) (iblk2 V c 1 t) (iblk2 V c 2 t) (iblk2 V c 3 t) (iblk2 V c 4 t) p q).trans ?_
  unfold whole
  rw [layerLin_ix2]
  simp only [tile_h V c t p, tile_a V c t p, tile_ws V c t, tile_wn V c t, tile_b V c t]

/-- What point t writes back is block t of the layer of the whole arrays. -/
theorem flushed_eq (c : Dev nD) (t : Fin cfg2.N) :
    (dat2 V c).flushed 5 t = ((cfg2.win 5).blk t).view.read (Elt Ideal) (whole V c) := by
  obtain ⟨-, -, -, -, -, -, -, -, -, e0, e1⟩ := idx_facts t
  show (cfg2.win 5).cut (grid2.coords t) ((dat2 V c).after 5 t) = _
  rw [after2_5]
  unfold out2_5
  rw [View.canon_unit_zero hz2]
  simp only [View.ld_unit_zero (S := S2000x256) hz2, View.ld_unit_zero (S := S256x256) hz2, View.ld_unit_zero (S := S256) hz1]
  funext j
  obtain ⟨p, q, rfl⟩ : ∃ (p : Fin 2000) (q : Fin 256), j = ix2 p q := ⟨j 0, j 1, eq_ix2 j⟩
  refine (stored_at V c t p q).trans ?_
  show whole V c _ = whole V c (((cfg2.win 5).blk t).view.emb (ix2 p q))
  refine congrArg _ (funext fun a => Fin.ext ?_)
  match a with
  | ⟨0, _⟩ => show 2000 * t.val + p.val = win2_5.index t (0 : Fin 2) * 2000 + 1 * p.val; rw [e0]; omega
  | ⟨1, _⟩ => show q.val = win2_5.index t (1 : Fin 2) * 256 + 1 * q.val; rw [e1]; omega

/-- An index of the result array is in point t's block iff each coordinate is in the block's range on its axis. -/
theorem mem_blk (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v59).slice (win2_5.rect t)).set ↔ _
  rw [View.set_slice_whole, Rect.mem_set_unit]
  exact Iff.rfl

/-- Row r of the result is in the block of point r / 2000. -/
theorem cover (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : cfg2.N = 25 := N_2
  have ht : (i 0).val / 2000 < cfg2.N := by omega
  obtain ⟨-, -, -, -, -, -, -, -, -, e0, e1⟩ := idx_facts ⟨(i 0).val / 2000, ht⟩
  refine ⟨⟨(i 0).val / 2000, ht⟩, flush2_5 _, ?_⟩
  rw [mem_blk]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win2_5.index ⟨(i 0).val / 2000, ht⟩ (1 : Fin 2) * 256 ≤ (i 1).val ∧ (i 1).val < win2_5.index ⟨(i 0).val / 2000, ht⟩ (1 : Fin 2) * 256 + 256
    rw [e1]
    omega

/-- The result array after the region: the layer of the whole arrays as the region finds them. -/
theorem arr_eq (c : Dev nD) : (dat2 V c).arrAt 5 cfg2.N = whole V c :=
  (dat2 V c).arrAt_eq_of_cover 5 (whole V c) (fun t _ => flushed_eq V c t) cover

end Cert.KernelIdeal.Blocks2

end
-- ==== Proof.KBlocks3.lean ====
/-
  Region 3 (the edge predictor) as one whole-array function.

  The region's grid has 100 points; point t reads rows 2000 t … 2000 t + 1999 of the edge-feature array, the three weight
  matrices and the three biases whole, and writes back rows 2000 t … 2000 t + 1999 of the one-column result.  The
  predictor's output for an edge depends on that edge's row only, so the tile point t writes is rows 2000 t … of the
  predictor of the WHOLE edge-feature array; the 100 tiles cover the result.
-/
import proofs.«145438_j62165356642855_1_alg».proof.Proof.Gen.KernelIdeal.Frame
import proofs.«145438_j62165356642855_1_alg».proof.Proof.KPayload
import Idealize.ShloMosaic.Lib.Pipeline.Value
import Idealize.ShloMosaic.Lib.ValueIdx

set_option maxRecDepth 16384

noncomputable section

namespace Cert.KernelIdeal.Blocks3

open Cert.KernelIdeal Cert.KernelIdeal.Gen Cert.KernelIdeal.Payload Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the edge features and the output are at block row t; every other operand is
    always at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

theorem row_lt (t : Fin cfg3.N) (p : Fin 2000) : 2000 * t.val + p.val < 200000 := by
  have h1 := t.isLt
  have hN : cfg3.N = 100 := N_3
  have h2 := p.isLt
  omega

/-- Row p of the edge-feature tile at point t is row 2000 t + p of the edge-feature array. -/
theorem tile_e (c : Dev nD) (t : Fin cfg3.N) (p : Fin 2000) (k : Fin 256) :
    (iblk3 V c 0 t : Vec Ideal S2000x256 .f32) (ix2 p k)
      = (V c main_v90 : S200000x256.Idx → EReal) (ix2 ⟨2000 * t.val + p.val, row_lt t p⟩ k) := by
  obtain ⟨e0, e1, -⟩ := idx_facts t
  unfold iblk3
  rw [View.read_apply]
  show V c main_v90 _ = V c main_v90 _
  refine congrArg _ (funext fun a => Fin.ext ?_)
  match a with
  | ⟨0, _⟩ => show win3_0.index t (0 : Fin 2) * 2000 + 1 * p.val = 2000 * t.val + p.val; rw [e0]; omega
  | ⟨1, _⟩ => show win3_0.index t (1 : Fin 2) * 256 + 1 * k.val = k.val; rw [e1]; omega

/-- The first weight matrix is staged whole at every point. -/
theorem tile_w1 (c : Dev nD) (t : Fin cfg3.N) :
    (iblk3 V c 1 t : Vec Ideal S256x256 .f32) = (V c main_arg16 : S256x256.Idx → EReal) := by
  obtain ⟨-, -, e0, e1, -⟩ := idx_facts t
  funext y
  unfold iblk3
  rw [View.read_apply]
  show V c main_arg16 _ = V c main_arg16 _
  refine congrArg _ (funext fun a => Fin.ext ?_)
  match a with
  | ⟨0, _⟩ => show win3_1.index t (0 : Fin 2) * 256 + 1 * (y 0).val = (y 0).val; rw [e0]; omega
  | ⟨1, _⟩ => show win3_1.index t (1 : Fin 2) * 256 + 1 * (y 1).val = (y 1).val; rw [e1]; omega

/-- The first bias is staged whole at every point. -/
theorem tile_b1 (c : Dev nD) (t : Fin cfg3.N) :
    (iblk3 V c 2 t : Vec Ideal S256 .f32) = (V c main_arg17 : S256.Idx → EReal) := by
  obtain ⟨-, -, -, -, e0, -⟩ := idx_facts t
  funext y
  unfold iblk3
  rw [View.read_apply]
  show V c main_arg17 _ = V c main_arg17 _
  refine congrArg _ (funext fun a => Fin.ext ?_)
  match a with
  | ⟨0, _⟩ => show win3_2.index t (0 : Fin 1) * 256 + 1 * (y 0).val = (y 0).val; rw [e0]; omega

/-- The second weight matrix is staged whole at every point. -/
theorem tile_w2 (c : Dev nD) (t : Fin cfg3.N) :
    (iblk3 V c 3 t : Vec Ideal S256x256 .f32) = (V c main_arg18 : S256x256.Idx → EReal) := by
  obtain ⟨-, -, -, -, -, e0, e1, -⟩ := idx_facts t
  funext y
  unfold iblk3
  rw [View.read_apply]
  show V c main_arg18 _ = V c main_arg18 _
  refine congrArg _ (funext fun a => Fin.ext ?_)
  match a with
  | ⟨0, _⟩ => show win3_3.index t (0 : Fin 2) * 256 + 1 * (y 0).val = (y 0).val; rw [e0]; omega
  | ⟨1, _⟩ => show win3_3.index t (1 : Fin 2) * 256 + 1 * (y 1).val = (y 1).val; rw [e1]; omega

/-- The second bias is staged whole at every point. -/
theorem tile_b2 (c : Dev nD) (t : Fin cfg3.N) :
    (iblk3 V c 4 t : Vec Ideal S256 .f32) = (V c main_arg19 : S256.Idx → EReal) := by
  obtain ⟨-, -, -, -, -, -, -, e0, -⟩ := idx_facts t
  funext y
  unfold iblk3
  rw [View.read_apply]
  show V c main_arg19 _ = V c main_arg19 _
  refine congrArg _ (funext fun a => Fin.ext ?_)
  match a with
  | ⟨0, _⟩ => show win3_4.index t (0 : Fin 1) * 256 + 1 * (y 0).val = (y 0).val; rw [e0]; omega

/-- The last weight column is staged whole at every point. -/
theorem tile_w3 (c : Dev nD) (t : Fin cfg3.N) :
    (iblk3 V c 5 t : Vec Ideal S256x1 .f32) = (V c main_arg20 : S256x1.Idx → EReal) := by
  obtain ⟨-, -, -, -, -, -, -, -, e0, e1, -⟩ := idx_facts t
  funext y
  unfold iblk3
  rw [View.read_apply]
  show V c main_arg20 _ = V c main_arg20 _
  refine congrArg _ (funext fun a => Fin.ext ?_)
  match a with
  | ⟨0, _⟩ => show win3_5.index t (0 : Fin 2) * 256 + 1 * (y 0).val = (y 0).val; rw [e0]; omega
  | ⟨1, _⟩ => show win3_5.index t (1 : Fin 2) * 1 + 1 * (y 1).val = (y 1).val; rw [e1]; omega

/-- The last bias is staged whole at every point. -/
theorem tile_b3 (c : Dev nD) (t : Fin cfg3.N) :
    (iblk3 V c 6 t : Vec Ideal S1 .f32) = (V c main_arg21 : S1.Idx → EReal) := by
  obtain ⟨-, -, -, -, -, -, -, -, -, -, e0, -⟩ := idx_facts t
  funext y
  unfold iblk3
  rw [View.read_apply]
  show V c main_arg21 _ = V c main_arg21 _
  refine congrArg _ (funext fun a => Fin.ext ?_)
  match a with
  | ⟨0, _⟩ => show win3_6.index t (0 : Fin 1) * 1 + 1 * (y 0).val = (y 0).val; rw [e0]; omega

/-- The predictor of the whole edge-feature array as the region finds it. -/
def whole (c : Dev nD) : S200000x1.Idx → EReal :=
  predArr (V c main_v90 : S200000x256.Idx → EReal) (V c main_arg16 : S256x256.Idx → EReal) (V c main_arg17 : S256.Idx → EReal)
    (V c main_arg18 : S256x256.Idx → EReal) (V c main_arg19 : S256.Idx → EReal) (V c main_arg20 : S256x1.Idx → EReal)
    (V c main_arg21 : S1.Idx → EReal)

/-- What the body stores at point t, at (p, 0): the predictor's output for edge 2000 t + p. -/
theorem stored_at (c : Dev nD) (t : Fin cfg3.N) (p : Fin 2000) (u : Fin 1) :
    k3_pay1 (F := Ideal) (iblk3 V c 0 t) (iblk3 V c 1 t) (iblk3 V c 2 t) (iblk3 V c 3 t) (iblk3 V c 4 t) (iblk3 V c 5 t) (iblk3 V c 6 t) (ix2 p u)
      = whole V c (ix2 ⟨2000 * t.val + p.val, row_lt t p⟩ u) := by
  refine (pay3_at (iblk3 V c 0 t) (iblk3 V c 1 t) (iblk3 V c 2 t) (iblk3 V c 3 t) (iblk3 V c 4 t) (iblk3 V c 5 t) (iblk3 V c 6 t) p u).trans ?_
  unfold whole
  rw [predArr_ix2]
  simp only [tile_e V c t p, tile_w1 V c t, tile_b1 V c t, tile_w2 V c t, tile_b2 V c t, tile_w3 V c t, tile_b3 V c t]

/-- What point t writes back is block t of the predictor of the whole edge-feature array. -/
theorem flushed_eq (c : Dev nD) (t : Fin cfg3.N) :
    (dat3 V c).flushed 7 t = ((cfg3.win 7).blk t).view.read (Elt Ideal) (whole V c) := by
  obtain ⟨-, -, -, -, -, -, -, -, -, -, -, e0, e1⟩ := idx_facts t
  show (cfg3.win 7).cut (grid3.coords t) ((dat3 V c).after 7 t) = _
  rw [after3_7]
  unfold out3_7
  rw [View.canon_unit_zero hz2]
  simp only [View.ld_unit_zero (S := S2000x256) hz2, View.ld_unit_zero (S := S256x256) hz2, View.ld_unit_zero (S := S256x1) hz2,
    View.ld_unit_zero (S := S256) hz1, View.ld_unit_zero (S := S1) hz1]
  funext j
  obtain ⟨p, u, rfl⟩ : ∃ (p : Fin 2000) (u : Fin 1), j = ix2 p u := ⟨j 0, j 1, eq_ix2 j⟩
  refine (stored_at V c t p u).trans ?_
  show whole V c _ = whole V c (((cfg3.win 7).blk t).view.emb (ix2 p u))
  refine congrArg _ (funext fun a => Fin.ext ?_)
  match a with
  | ⟨0, _⟩ => show 2000 * t.val + p.val = win3_7.index t (0 : Fin 2) * 2000 + 1 * p.val; rw [e0]; omega
  | ⟨1, _⟩ => show u.val = win3_7.index t (1 : Fin 2) * 1 + 1 * u.val; rw [e1]; omega

/-- An index of the result array is in point t's block iff each coordinate is in the block's range on its axis. -/
theorem mem_blk (t : Fin cfg3.N) (i : S200000x1.Idx) :
    i ∈ ((cfg3.win 7).blk t).view.set ↔ ∀ a : Fin 2, win3_7.index t a * S2000x1.size a ≤ (i a).val ∧ (i a).val < win3_7.index t a * S2000x1.size a + S2000x1.size a := by
  show i ∈ ((View.whole main_v91).slice (win3_7.rect t)).set ↔ _
  rw [View.set_slice_whole, Rect.mem_set_unit]
  exact Iff.rfl

/-- Row r of the result is in the block of point r / 2000. -/
theorem cover (i : S200000x1.Idx) :
    ∃ t : Fin cfg3.N, (cfg3.win 7).flush t = true ∧ i ∈ ((cfg3.win 7).blk t).view.set := by
  have hi0 : (i 0).val < 200000 := (i 0).isLt
  have hi1 : (i 1).val < 1 := (i 1).isLt
  have hN : cfg3.N = 100 := N_3
  have ht : (i 0).val / 2000 < cfg3.N := by omega
  obtain ⟨-, -, -, -, -, -, -, -, -, -, -, e0, e1⟩ := idx_facts ⟨(i 0).val / 2000, ht⟩
  refine ⟨⟨(i 0).val / 2000, ht⟩, flush3_7 _, ?_⟩
  rw [mem_blk]
  intro a
  match a with
  | ⟨0, _⟩ =>
    show win3_7.index ⟨(i 0).val / 2000, ht⟩ (0 : Fin 2) * 2000 ≤ (i 0).val ∧ (i 0).val < win3_7.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win3_7.index ⟨(i 0).val / 2000, ht⟩ (1 : Fin 2) * 1 ≤ (i 1).val ∧ (i 1).val < win3_7.index ⟨(i 0).val / 2000, ht⟩ (1 : Fin 2) * 1 + 1
    rw [e1]
    omega

/-- The result array after the region: the predictor of the whole edge-feature array as the region finds it. -/
theorem arr_eq (c : Dev nD) : (dat3 V c).arrAt 7 cfg3.N = whole V c :=
  (dat3 V c).arrAt_eq_of_cover 7 (whole V c) (fun t _ => flushed_eq V c t) cover

end Cert.KernelIdeal.Blocks3

end
-- ==== Proof.HostChain.lean ====
/-
  The host operations the two programs share, as functions of the node features they are applied to, and the whole
  network composed from them and from the layers' and the predictor's entries.

  Both programs gather the source rows of every edge, add them into the destination rows, and divide by the number of
  incoming edges (at least one): the mean over incoming edges.  Both gather the two end points' rows of every
  candidate pair and multiply them.  Neither proof ever opens these operations: each is carried as ONE function of the
  feature array, and the two programs are shown to apply it to equal arrays.
-/
import proofs.«145438_j62165356642855_1_alg».proof.Proof.Gen.ReferenceIdeal.Read
import proofs.«145438_j62165356642855_1_alg».proof.Proof.Spec

set_option maxRecDepth 16384

noncomputable section

namespace Cert.Sage.Chain

open Idealize.ShloMosaic Cert.ReferenceIdeal Cert.ReferenceIdeal.Read Cert.Sage

/-- The mean over incoming edges of the rows of a feature array of width 128 (the first layer's aggregate). -/
abbrev agg128 (h : (⟨S50000x128, .f32⟩ : BufTy).Contents (Elt Ideal)) (x1 x2 : (⟨S800000, .i32⟩ : BufTy).Contents (Elt Ideal)) : (⟨S50000x128, .f32⟩ : BufTy).Contents (Elt Ideal) :=
  val_main_v18 (F := Ideal) h x1 x2

/-- The mean over incoming edges of the rows of a feature array of width 256. -/
def agg256 (h : (⟨S50000x256, .f32⟩ : BufTy).Contents (Elt Ideal)) (x1 x2 : (⟨S800000, .i32⟩ : BufTy).Contents (Elt Ideal)) : (⟨S50000x256, .f32⟩ : BufTy).Contents (Elt Ideal) :=
  Host.divf (F := Ideal) (φ := .f32) (Host.scatterAdd (F := Ideal) (φ := .f32) scatter_S50000x256_S800000x1_S800000x256_1_0_0_1 (val_main_v37 (F := Ideal)) (val_main_v38 (F := Ideal) x2)
      (Host.gather gather_S50000x256_S800000x1_S800000x256_1_0_n_n_0_1_1256 h (val_main_v31 (F := Ideal) x1)))
    (val_main_v43 (F := Ideal) x2)

/-- The products of the two end points' rows, one row per candidate pair. -/
def pairs (h : (⟨S50000x256, .f32⟩ : BufTy).Contents (Elt Ideal)) (xa xb : (⟨S100000, .i32⟩ : BufTy).Contents (Elt Ideal)) : (⟨S100000x256, .f32⟩ : BufTy).Contents (Elt Ideal) :=
  mulf (F := Ideal) (φ := .f32) (Host.gather gather_S50000x256_S100000x1_S100000x256_1_0_n_n_0_1_1256 h (val_main_v82 (F := Ideal) xa))
    (Host.gather gather_S50000x256_S100000x1_S100000x256_1_0_n_n_0_1_1256 h (val_main_v89 (F := Ideal) xb))

variable (x0 : (⟨S50000x128, .f32⟩ : BufTy).Contents (Elt Ideal)) (x1 x2 : (⟨S800000, .i32⟩ : BufTy).Contents (Elt Ideal))
  (x3 x4 x5 x6 : (⟨S100000, .i32⟩ : BufTy).Contents (Elt Ideal))
  (x7 x8 : (⟨S128x256, .f32⟩ : BufTy).Contents (Elt Ideal)) (x9 : (⟨S256, .f32⟩ : BufTy).Contents (Elt Ideal))
  (x10 x11 : (⟨S256x256, .f32⟩ : BufTy).Contents (Elt Ideal)) (x12 : (⟨S256, .f32⟩ : BufTy).Contents (Elt Ideal))
  (x13 x14 : (⟨S256x256, .f32⟩ : BufTy).Contents (Elt Ideal)) (x15 : (⟨S256, .f32⟩ : BufTy).Contents (Elt Ideal))
  (x16 : (⟨S256x256, .f32⟩ : BufTy).Contents (Elt Ideal)) (x17 : (⟨S256, .f32⟩ : BufTy).Contents (Elt Ideal))
  (x18 : (⟨S256x256, .f32⟩ : BufTy).Contents (Elt Ideal)) (x19 : (⟨S256, .f32⟩ : BufTy).Contents (Elt Ideal))
  (x20 : (⟨S256x1, .f32⟩ : BufTy).Contents (Elt Ideal)) (x21 : (⟨S1, .f32⟩ : BufTy).Contents (Elt Ideal))

/-- The node features after the first layer. -/
def feat1 : (⟨S50000x256, .f32⟩ : BufTy).Contents (Elt Ideal) := layerRelu x0 (agg128 x0 x1 x2) x7 x8 x9
/-- The node features after the second layer. -/
def feat2 : (⟨S50000x256, .f32⟩ : BufTy).Contents (Elt Ideal) :=
  layerRelu (feat1 x0 x1 x2 x7 x8 x9) (agg256 (feat1 x0 x1 x2 x7 x8 x9) x1 x2) x10 x11 x12
/-- The node features after the third layer. -/
def feat3 : (⟨S50000x256, .f32⟩ : BufTy).Contents (Elt Ideal) :=
  layerLin (feat2 x0 x1 x2 x7 x8 x9 x10 x11 x12) (agg256 (feat2 x0 x1 x2 x7 x8 x9 x10 x11 x12) x1 x2) x13 x14 x15
/-- The predictor's output for every candidate pair (xa, xb). -/
def score (xa xb : (⟨S100000, .i32⟩ : BufTy).Contents (Elt Ideal)) : (⟨S100000x1, .f32⟩ : BufTy).Contents (Elt Ideal) :=
  predArr (pairs (feat3 x0 x1 x2 x7 x8 x9 x10 x11 x12 x13 x14 x15) xa xb) x16 x17 x18 x19 x20 x21

/-- The reference's second aggregate is the mean over incoming edges of its first layer's result. -/
theorem agg256_second : val_main_v44 (F := Ideal) x0 x1 x2 x7 x8 x9 = agg256 (val_main_v25 (F := Ideal) x0 x1 x2 x7 x8 x9) x1 x2 := by
  unfold val_main_v44 val_main_v39 val_main_v32 agg256
  rfl

/-- The reference's third aggregate is the mean over incoming edges of its second layer's result. -/
theorem agg256_third : val_main_v70 (F := Ideal) x0 x1 x2 x7 x8 x9 x10 x11 x12
    = agg256 (val_main_v51 (F := Ideal) x0 x1 x2 x7 x8 x9 x10 x11 x12) x1 x2 := by
  have e1 : val_main_v63 (F := Ideal) = val_main_v37 (F := Ideal) := by
    unfold val_main_v63 val_main_v37 val_main_cst_14 val_main_cst_8; rfl
  have e2 : val_main_v64 (F := Ideal) x2 = val_main_v38 (F := Ideal) x2 := by
    unfold val_main_v64 val_main_v38; rfl
  have e3 : val_main_v57 (F := Ideal) x1 = val_main_v31 (F := Ideal) x1 := by
    unfold val_main_v57 val_main_v56 val_main_v55 val_main_v54 val_main_v53 val_main_v52 val_main_c_11 val_main_c_10
      val_main_v31 val_main_v30 val_main_v29 val_main_v28 val_main_v27 val_main_v26 val_main_c_5 val_main_c_4; rfl
  have e4 : val_main_v69 (F := Ideal) x2 = val_main_v43 (F := Ideal) x2 := by
    unfold val_main_v69 val_main_v68 val_main_v67 val_main_v66 val_main_cst_15 val_main_v62 val_main_v61 val_main_v60 val_main_cst_13
      val_main_v59 val_main_cst_12
      val_main_v43 val_main_v42 val_main_v41 val_main_v40 val_main_cst_9 val_main_v36 val_main_v35 val_main_v34 val_main_cst_7
      val_main_v33 val_main_cst_6; rfl
  unfold val_main_v70 val_main_v65 val_main_v58 agg256
  rw [e1, e2, e3, e4]

/-- The reference's positive pairs' features are the pair products of its third layer's result. -/
theorem pairs_pos : val_main_v91 (F := Ideal) x0 x1 x2 x3 x4 x7 x8 x9 x10 x11 x12 x13 x14 x15
    = pairs (val_main_v76 (F := Ideal) x0 x1 x2 x7 x8 x9 x10 x11 x12 x13 x14 x15) x3 x4 := by
  unfold val_main_v91 val_main_v83 val_main_v90 pairs
  rfl

/-- The reference's negative pairs' features are the pair products of its third layer's result. -/
theorem pairs_neg : val_main_v120 (F := Ideal) x0 x1 x2 x5 x6 x7 x8 x9 x10 x11 x12 x13 x14 x15
    = pairs (val_main_v76 (F := Ideal) x0 x1 x2 x7 x8 x9 x10 x11 x12 x13 x14 x15) x5 x6 := by
  have e1 : val_main_v111 (F := Ideal) x5 = val_main_v82 (F := Ideal) x5 := by
    unfold val_main_v111 val_main_v110 val_main_v109 val_main_v108 val_main_v107 val_main_v106 val_main_c_21 val_main_c_20
      val_main_v82 val_main_v81 val_main_v80 val_main_v79 val_main_v78 val_main_v77 val_main_c_17 val_main_c_16; rfl
  have e2 : val_main_v118 (F := Ideal) x6 = val_main_v89 (F := Ideal) x6 := by
    unfold val_main_v118 val_main_v117 val_main_v116 val_main_v115 val_main_v114 val_main_v113 val_main_c_23 val_main_c_22
      val_main_v89 val_main_v88 val_main_v87 val_main_v86 val_main_v85 val_main_v84 val_main_c_19 val_main_c_18; rfl
  unfold val_main_v120 val_main_v112 val_main_v119 pairs
  rw [e1, e2]

end Cert.Sage.Chain

end
-- ==== Proof.LibMatrixRows.lean ====
/-
  Matrices joined or cut along their ROWS, read at an index written by coordinates, and the coercion of the reals into
  the extended reals through a finite sum.  General lemmas: any element type, any extents.

  * two matrices [a, b] and [c, b] joined along their rows into [n, b], read in the upper and in the lower part;
  * a block of a whole rows starting at row `off` cut out of a matrix [n, b];
  * a finite sum of coerced reals is the coercion of the sum.
-/
import Idealize.ShloMosaic.Lib.Pipeline.Value
import Idealize.ShloMosaic.Lib.ValueIdx
import Idealize.ShloMosaic.PureOps.Ideal

namespace Cert.LibMatrixRows

open Idealize.ShloMosaic Idealize.ShloMosaic.ValueIdx

/-! ## Two matrices joined along their rows -/

section Rows

variable {α : Type}

/-- Two matrices joined along their rows read, in the first a rows, the upper one. -/
theorem concat_rows_upper {a c n b : ℕ} (x₁ : (⟨2, ![a, b]⟩ : Shape).Idx → α) (x₂ : (⟨2, ![c, b]⟩ : Shape).Idx → α)
    (h : Shape.Concatenates [(⟨2, ![a, b]⟩ : Shape), ⟨2, ![c, b]⟩] ⟨2, ![n, b]⟩ (0 : Fin 2)) (p : Fin a) (j : Fin b)
    (e : Fin n) (he : e.val = p.val) :
    concatenate ⟨2, ![n, b]⟩ (0 : Fin 2) [⟨⟨2, ![a, b]⟩, x₁⟩, ⟨⟨2, ![c, b]⟩, x₂⟩] h (ix2 e j) = x₁ (ix2 p j) := by
  refine concatenate_pair_apply_left (0 : Fin 2) x₁ x₂ h (ix2 e j) rfl (ix2 p j) fun ax => ?_
  match ax with
  | ⟨0, _⟩ => exact he.symm
  | ⟨1, _⟩ => rfl

/-- Two matrices joined along their rows read, past the first a rows, the lower one. -/
theorem concat_rows_lower {a c n b : ℕ} (x₁ : (⟨2, ![a, b]⟩ : Shape).Idx → α) (x₂ : (⟨2, ![c, b]⟩ : Shape).Idx → α)
    (h : Shape.Concatenates [(⟨2, ![a, b]⟩ : Shape), ⟨2, ![c, b]⟩] ⟨2, ![n, b]⟩ (0 : Fin 2)) (p : Fin c) (j : Fin b)
    (e : Fin n) (he : e.val = a + p.val) :
    concatenate ⟨2, ![n, b]⟩ (0 : Fin 2) [⟨⟨2, ![a, b]⟩, x₁⟩, ⟨⟨2, ![c, b]⟩, x₂⟩] h (ix2 e j) = x₂ (ix2 p j) := by
  refine concatenate_pair_apply_right (0 : Fin 2) x₁ x₂ h (ix2 e j) rfl rfl (ix2 p j) (fun ax hax => ?_) ?_
  · match ax with
    | ⟨0, _⟩ => exact absurd rfl hax
    | ⟨1, _⟩ => rfl
  · show p.val + a = e.val
    omega

/-- A block of whole rows cut out of a matrix reads, at (p, k), the matrix's entry (off + p, k). -/
theorem slice_rows_apply {n a b off : ℕ} (x : (⟨2, ![n, b]⟩ : Shape).Idx → α)
    (h : (⟨2, ![n, b]⟩ : Shape).Slices ![off, 0] ⟨2, ![a, b]⟩) (p : Fin a) (k : Fin b) (e : Fin n) (he : e.val = off + p.val) :
    extractStridedSlice ⟨2, ![a, b]⟩ ![off, 0] x h (ix2 p k) = x (ix2 e k) := by
  refine extractStridedSlice_apply ![off, 0] x h (ix2 p k) (ix2 e k) fun ax => ?_
  match ax with
  | ⟨0, _⟩ => exact he
  | ⟨1, _⟩ => show k.val = 0 + k.val; omega

end Rows

/-- The coercion of the reals into the extended reals commutes with finite sums. -/
theorem coe_finset_sum {ι : Type} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

end Cert.LibMatrixRows
-- ==== Proof.KFold.lean ====
/-
  The kernel program's two results as the network's function of the arguments.

  Walking the fold of boundary contents forward: the first host stretch leaves the mean over incoming edges of the input
  features; the first region leaves the first layer of the input and that mean; the second stretch leaves the mean of
  the first layer's result; and so on through the third region.  The fourth stretch gathers and multiplies the end
  points' rows of the positive and of the negative pairs and stacks the two blocks of rows; the fourth region applies the
  predictor to every row; the last stretch cuts the column of outputs back into the positive and the negative half.
  The predictor's output of a row depends on that row only, so row r of the upper half is the predictor of row r of the
  positive pairs' features, and row r of the lower half that of the negative pairs'.
-/
import proofs.«145438_j62165356642855_1_alg».proof.Proof.Gen.KernelIdeal.Frame
import proofs.«145438_j62165356642855_1_alg».proof.Proof.KWalk
import proofs.«145438_j62165356642855_1_alg».proof.Proof.KBlocks0
import proofs.«145438_j62165356642855_1_alg».proof.Proof.KBlocks1
import proofs.«145438_j62165356642855_1_alg».proof.Proof.KBlocks2
import proofs.«145438_j62165356642855_1_alg».proof.Proof.KBlocks3
import proofs.«145438_j62165356642855_1_alg».proof.Proof.HostChain
import proofs.«145438_j62165356642855_1_alg».proof.Proof.LibMatrixRows
import Idealize.ShloMosaic.Lib.StableHlo.Run
import Idealize.ShloMosaic.Lib.ValueIdx

set_option maxRecDepth 16384

noncomputable section

namespace Cert.KernelIdeal.Fold

open Cert.KernelIdeal Cert.KernelIdeal.Gen Cert.KernelIdeal.Walk Cert.Sage Cert.Sage.Chain Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- After the first host stretch: the mean over incoming edges of the input features. -/
theorem mean1 : (W1 m ρ c (Proc.devRef .tc main_v18)) = agg128 (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  show _ = val_main_v18 (F := Ideal) _ _ _
  unfold val_main_v18 val_main_v17 val_main_v16 val_main_v15 val_main_v14 val_main_cst_3 val_main_v13 val_main_v12 val_main_v11 val_main_cst_2 val_main_v10 val_main_v9 val_main_v8 val_main_cst_1 val_main_v7 val_main_cst val_main_v6 val_main_v5 val_main_v4 val_main_v3 val_main_v2 val_main_c_0 val_main_v1 val_main_v0 val_main_c
  rfl

/-- After the first region: the first layer. -/
theorem layer1 : (W2 m ρ c (Proc.devRef .tc main_v19)) = feat1 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) := by
  refine (W2_arr m ρ c 5).trans ?_
  rw [Blocks0.arr_eq]
  unfold Blocks0.whole feat1
  show layerRelu (N := 50000) (K := 128) (W1 m ρ c (Proc.devRef .tc main_arg0)) (W1 m ρ c (Proc.devRef .tc main_v18)) (W1 m ρ c (Proc.devRef .tc main_arg7)) (W1 m ρ c (Proc.devRef .tc main_arg8)) (W1 m ρ c (Proc.devRef .tc main_arg9)) = _
  rw [mean1, w1_arg0, w1_arg7, w1_arg8, w1_arg9]

/-- After the second host stretch: the mean over incoming edges of the first layer's result. -/
theorem mean2 : (W3 m ρ c (Proc.devRef .tc main_v38)) = agg256 (W2 m ρ c (Proc.devRef .tc main_v19)) (m ((c : Thread nD τ).loc main_arg1)) (m ((c : Thread nD τ).loc main_arg2)) := by
  show StableHlo.after hostOps1 (W2 m ρ c) (Proc.devRef .tc main_v38) = _
  after_results_simp
  rw [w2_arg1, w2_arg2]
  unfold agg256 val_main_v43 val_main_v42 val_main_v41 val_main_v40 val_main_cst_9 val_main_v36 val_main_v35 val_main_v34 val_main_cst_7 val_main_v33 val_main_cst_6 val_main_v38 val_main_v37 val_main_cst_8 val_main_v31 val_main_v30 val_main_v29 val_main_v28 val_main_c_5 val_main_v27 val_main_v26 val_main_c_4
  rfl

/-- After the second region: the second layer. -/
theorem layer2 : (W4 m ρ c (Proc.devRef .tc main_v39)) = feat2 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W4_arr m ρ c 5).trans ?_
  rw [Blocks1.arr_eq]
  unfold Blocks1.whole feat2
  show layerRelu (N := 50000) (K := 256) (W3 m ρ c (Proc.devRef .tc main_v19)) (W3 m ρ c (Proc.devRef .tc main_v38)) (W3 m ρ c (Proc.devRef .tc main_arg10)) (W3 m ρ c (Proc.devRef .tc main_arg11)) (W3 m ρ c (Proc.devRef .tc main_arg12)) = _
  rw [mean2, w3_v19, layer1, w3_arg10, w3_arg11, w3_arg12]

/-- After the third host stretch: the mean over incoming edges of the second layer's result. -/
theorem mean3 : (W5 m ρ c (Proc.devRef .tc main_v58)) = agg256 (W4 m ρ c (Proc.devRef .tc main_v39)) (m ((c : Thread nD τ).loc main_arg1)) (m ((c : Thread nD τ).loc main_arg2)) := by
  show StableHlo.after hostOps2 (W4 m ρ c) (Proc.devRef .tc main_v58) = _
  after_results_simp
  rw [w4_arg1, w4_arg2]
  unfold agg256 val_main_v43 val_main_v42 val_main_v41 val_main_v40 val_main_cst_9 val_main_v36 val_main_v35 val_main_v34 val_main_cst_7 val_main_v33 val_main_cst_6 val_main_v38 val_main_v37 val_main_cst_8 val_main_v31 val_main_v30 val_main_v29 val_main_v28 val_main_c_5 val_main_v27 val_main_v26 val_main_c_4
  rfl

/-- After the third region: the third layer. -/
theorem layer3 : (W6 m ρ c (Proc.devRef .tc main_v59)) = feat3 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W6_arr m ρ c 5).trans ?_
  rw [Blocks2.arr_eq]
  unfold Blocks2.whole feat3
  show layerLin (N := 50000) (K := 256) (W5 m ρ c (Proc.devRef .tc main_v39)) (W5 m ρ c (Proc.devRef .tc main_v58)) (W5 m ρ c (Proc.devRef .tc main_arg13)) (W5 m ρ c (Proc.devRef .tc main_arg14)) (W5 m ρ c (Proc.devRef .tc main_arg15)) = _
  rw [mean3, w5_v39, layer2, w5_arg13, w5_arg14, w5_arg15]

/-- After the fourth host stretch: the products of the end points' rows of the positive pairs. -/
theorem pos_feats : (W7 m ρ c (Proc.devRef .tc main_v74)) = pairs (W6 m ρ c (Proc.devRef .tc main_v59)) (m ((c : Thread nD τ).loc main_arg3)) (m ((c : Thread nD τ).loc main_arg4)) := by
  show StableHlo.after hostOps3 (W6 m ρ c) (Proc.devRef .tc main_v74) = _
  after_results_simp
  rw [w6_arg3, w6_arg4]
  unfold pairs val_main_v82 val_main_v81 val_main_v80 val_main_v79 val_main_c_17 val_main_v78 val_main_v77 val_main_c_16 val_main_v89 val_main_v88 val_main_v87 val_main_v86 val_main_c_19 val_main_v85 val_main_v84 val_main_c_18
  rfl

/-- After the fourth host stretch: the products of the end points' rows of the negative pairs. -/
theorem neg_feats : (W7 m ρ c (Proc.devRef .tc main_v89)) = pairs (W6 m ρ c (Proc.devRef .tc main_v59)) (m ((c : Thread nD τ).loc main_arg5)) (m ((c : Thread nD τ).loc main_arg6)) := by
  show StableHlo.after hostOps3 (W6 m ρ c) (Proc.devRef .tc main_v89) = _
  after_results_simp
  rw [w6_arg5, w6_arg6]
  unfold pairs val_main_v82 val_main_v81 val_main_v80 val_main_v79 val_main_c_17 val_main_v78 val_main_v77 val_main_c_16 val_main_v89 val_main_v88 val_main_v87 val_main_v86 val_main_c_19 val_main_v85 val_main_v84 val_main_c_18
  rfl

/-- The stretch's last operation stacks the positive pairs' features on the negative pairs'. -/
theorem edges : (W7 m ρ c (Proc.devRef .tc main_v90))
    = concatenate Cert.KernelIdeal.S200000x256 0
        [⟨Cert.KernelIdeal.S100000x256, (W7 m ρ c (Proc.devRef .tc main_v74))⟩,
         ⟨Cert.KernelIdeal.S100000x256, (W7 m ρ c (Proc.devRef .tc main_v89))⟩]
        concatenates_S100000x256_S100000x256_S200000x256_d0 := by
  show StableHlo.after hostOps3 (W6 m ρ c) (Proc.devRef .tc main_v90)
    = concatenate Cert.KernelIdeal.S200000x256 0
        [⟨Cert.KernelIdeal.S100000x256, StableHlo.after hostOps3 (W6 m ρ c) (Proc.devRef .tc main_v74)⟩,
         ⟨Cert.KernelIdeal.S100000x256, StableHlo.after hostOps3 (W6 m ρ c) (Proc.devRef .tc main_v89)⟩]
        concatenates_S100000x256_S100000x256_S200000x256_d0
  simp only [after_cons, after_nil]
  rw [binary_result, binary_result_ne (h := (by decide : main_v74 ≠ main_v90)),
    binary_result_ne (h := (by decide : main_v89 ≠ main_v90))]

/-- After the fourth region: the predictor of every stacked row. -/
theorem scores : (W8 m ρ c (Proc.devRef .tc main_v91))
    = predArr (N := 200000) ((W7 m ρ c (Proc.devRef .tc main_v90)) : Cert.KernelIdeal.S200000x256.Idx → EReal) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  refine (W8_arr m ρ c 7).trans ?_
  rw [Blocks3.arr_eq]
  unfold Blocks3.whole
  show predArr (N := 200000) (W7 m ρ c (Proc.devRef .tc main_v90)) (W7 m ρ c (Proc.devRef .tc main_arg16)) (W7 m ρ c (Proc.devRef .tc main_arg17)) (W7 m ρ c (Proc.devRef .tc main_arg18)) (W7 m ρ c (Proc.devRef .tc main_arg19)) (W7 m ρ c (Proc.devRef .tc main_arg20)) (W7 m ρ c (Proc.devRef .tc main_arg21)) = _
  rw [w7_arg16, w7_arg17, w7_arg18, w7_arg19, w7_arg20, w7_arg21]

/-- Row e of the stacked edge features, for e below 100000, is row e of the positive pairs' features. -/
theorem edges_upper (p : Fin 100000) (k : Fin 256) (e : Fin 200000) (he : e.val = p.val) :
    ((W7 m ρ c (Proc.devRef .tc main_v90)) : Cert.KernelIdeal.S200000x256.Idx → EReal) (ix2 e k)
      = pairs (feat3 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg3)) (m ((c : Thread nD τ).loc main_arg4)) (ix2 p k) := by
  rw [edges]
  refine (Cert.LibMatrixRows.concat_rows_upper _ _ _ p k e he).trans ?_
  rw [pos_feats, layer3]

/-- Row e of the stacked edge features, for e = 100000 + p, is row p of the negative pairs' features. -/
theorem edges_lower (p : Fin 100000) (k : Fin 256) (e : Fin 200000) (he : e.val = 100000 + p.val) :
    ((W7 m ρ c (Proc.devRef .tc main_v90)) : Cert.KernelIdeal.S200000x256.Idx → EReal) (ix2 e k)
      = pairs (feat3 (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg5)) (m ((c : Thread nD τ).loc main_arg6)) (ix2 p k) := by
  rw [edges]
  refine (Cert.LibMatrixRows.concat_rows_lower _ _ _ p k e he).trans ?_
  rw [neg_feats, layer3]

/-- The first result: the predictor's outputs for the positive pairs. -/
theorem result_pos : (W9 m ρ c (Proc.devRef .tc main_v92)) = score (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg3)) (m ((c : Thread nD τ).loc main_arg4)) := by
  show StableHlo.after hostOps4 (W8 m ρ c) (Proc.devRef .tc main_v92) = _
  after_results_simp
  funext i
  obtain ⟨p, u, rfl⟩ : ∃ (p : Fin 100000) (u : Fin 1), i = ix2 p u := ⟨i 0, i 1, eq_ix2 i⟩
  have hp := p.isLt
  refine (Cert.LibMatrixRows.slice_rows_apply _ _ p u ⟨p.val, by omega⟩ (by show p.val = 0 + p.val; omega)).trans ?_
  rw [scores, predArr_ix2]
  unfold score
  rw [predArr_ix2]
  refine congrArg (fun row => predEntry row _ _ _ _ _ _ u) (funext fun k => ?_)
  exact edges_upper m ρ c p k ⟨p.val, by omega⟩ rfl

/-- The second result: the predictor's outputs for the negative pairs. -/
theorem result_neg : (W9 m ρ c (Proc.devRef .tc main_v93)) = score (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg5)) (m ((c : Thread nD τ).loc main_arg6)) := by
  show StableHlo.after hostOps4 (W8 m ρ c) (Proc.devRef .tc main_v93) = _
  after_results_simp
  funext i
  obtain ⟨p, u, rfl⟩ : ∃ (p : Fin 100000) (u : Fin 1), i = ix2 p u := ⟨i 0, i 1, eq_ix2 i⟩
  have hp := p.isLt
  refine (Cert.LibMatrixRows.slice_rows_apply _ _ p u ⟨100000 + p.val, by omega⟩ rfl).trans ?_
  rw [scores, predArr_ix2]
  unfold score
  rw [predArr_ix2]
  refine congrArg (fun row => predEntry row _ _ _ _ _ _ u) (funext fun k => ?_)
  exact edges_lower m ρ c p k ⟨100000 + p.val, by omega⟩ rfl

end Cert.KernelIdeal.Fold

end
-- ==== Proof.RefSpec.lean ====
/-
  The reference program's three layers and its edge predictor, read one entry at a time.

  Each of the five arrays below is the end of a short chain of whole-array operations: matrix products, their sum, a
  bias row broadcast down the rows, and (for the first two layers and the predictor's two hidden stages) the maximum
  with a splat of the zero word.  Read at entry (p, q), a matrix product is the sum over k of left (p, k) * right (k, q),
  the broadcast bias row is b q, and the splat is the zero word: so the entry is the one the specification writes
  down, with the rows p of the operands as its data.  The proofs do that reading, operation by operation, and nothing
  else; the only arithmetic is that of indices (which entry of an operand an operation reads).
-/
import proofs.«145438_j62165356642855_1_alg».proof.Proof.Gen.ReferenceIdeal.Read
import proofs.«145438_j62165356642855_1_alg».proof.Proof.Spec

noncomputable section

namespace Cert.ReferenceIdeal.RefSpec

open Cert.ReferenceIdeal Cert.ReferenceIdeal.Gen Cert.ReferenceIdeal.Read Idealize.ShloMosaic Idealize.ShloMosaic.ValueIdx

/-! ## Which entries the operations read

At the output entry (p, q) a matrix product's k-th term reads the left operand at (p, k) and the right one at (k, q);
a bias row broadcast first to one row and then down all rows is read at q. -/

theorem lidx_v19 (p : Fin 50000) (q : Fin 256) (k : Fin 128) : lidx_main_v19 (ix2 p q) k = ix2 p k :=
  funext fun a => Fin.ext (by match a with | ⟨0, _⟩ => rfl | ⟨1, _⟩ => rfl)
theorem ridx_v19 (p : Fin 50000) (q : Fin 256) (k : Fin 128) : ridx_main_v19 (ix2 p q) k = ix2 k q :=
  funext fun a => Fin.ext (by match a with | ⟨0, _⟩ => rfl | ⟨1, _⟩ => rfl)
theorem lidx_v20 (p : Fin 50000) (q : Fin 256) (k : Fin 128) : lidx_main_v20 (ix2 p q) k = ix2 p k :=
  funext fun a => Fin.ext (by match a with | ⟨0, _⟩ => rfl | ⟨1, _⟩ => rfl)
theorem ridx_v20 (p : Fin 50000) (q : Fin 256) (k : Fin 128) : ridx_main_v20 (ix2 p q) k = ix2 k q :=
  funext fun a => Fin.ext (by match a with | ⟨0, _⟩ => rfl | ⟨1, _⟩ => rfl)
theorem lidx_v45 (p : Fin 50000) (q : Fin 256) (k : Fin 256) : lidx_main_v45 (ix2 p q) k = ix2 p k :=
  funext fun a => Fin.ext (by match a with | ⟨0, _⟩ => rfl | ⟨1, _⟩ => rfl)
theorem ridx_v45 (p : Fin 50000) (q : Fin 256) (k : Fin 256) : ridx_main_v45 (ix2 p q) k = ix2 k q :=
  funext fun a => Fin.ext (by match a with | ⟨0, _⟩ => rfl | ⟨1, _⟩ => rfl)
theorem lidx_v46 (p : Fin 50000) (q : Fin 256) (k : Fin 256) : lidx_main_v46 (ix2 p q) k = ix2 p k :=
  funext fun a => Fin.ext (by match a with | ⟨0, _⟩ => rfl | ⟨1, _⟩ => rfl)
theorem ridx_v46 (p : Fin 50000) (q : Fin 256) (k : Fin 256) : ridx_main_v46 (ix2 p q) k = ix2 k q :=
  funext fun a => Fin.ext (by match a with | ⟨0, _⟩ => rfl | ⟨1, _⟩ => rfl)
theorem lidx_v71 (p : Fin 50000) (q : Fin 256) (k : Fin 256) : lidx_main_v71 (ix2 p q) k = ix2 p k :=
  funext fun a => Fin.ext (by match a with | ⟨0, _⟩ => rfl | ⟨1, _⟩ => rfl)
theorem ridx_v71 (p : Fin 50000) (q : Fin 256) (k : Fin 256) : ridx_main_v71 (ix2 p q) k = ix2 k q :=
  funext fun a => Fin.ext (by match a with | ⟨0, _⟩ => rfl | ⟨1, _⟩ => rfl)
theorem lidx_v72 (p : Fin 50000) (q : Fin 256) (k : Fin 256) : lidx_main_v72 (ix2 p q) k = ix2 p k :=
  funext fun a => Fin.ext (by match a with | ⟨0, _⟩ => rfl | ⟨1, _⟩ => rfl)
theorem ridx_v72 (p : Fin 50000) (q : Fin 256) (k : Fin 256) : ridx_main_v72 (ix2 p q) k = ix2 k q :=
  funext fun a => Fin.ext (by match a with | ⟨0, _⟩ => rfl | ⟨1, _⟩ => rfl)
theorem lidx_v92 (p : Fin 100000) (q : Fin 256) (k : Fin 256) : lidx_main_v92 (ix2 p q) k = ix2 p k :=
  funext fun a => Fin.ext (by match a with | ⟨0, _⟩ => rfl | ⟨1, _⟩ => rfl)
theorem ridx_v92 (p : Fin 100000) (q : Fin 256) (k : Fin 256) : ridx_main_v92 (ix2 p q) k = ix2 k q :=
  funext fun a => Fin.ext (by match a with | ⟨0, _⟩ => rfl | ⟨1, _⟩ => rfl)
theorem lidx_v97 (p : Fin 100000) (q : Fin 256) (k : Fin 256) : lidx_main_v97 (ix2 p q) k = ix2 p k :=
  funext fun a => Fin.ext (by match a with | ⟨0, _⟩ => rfl | ⟨1, _⟩ => rfl)
theorem ridx_v97 (p : Fin 100000) (q : Fin 256) (k : Fin 256) : ridx_main_v97 (ix2 p q) k = ix2 k q :=
  funext fun a => Fin.ext (by match a with | ⟨0, _⟩ => rfl | ⟨1, _⟩ => rfl)
theorem lidx_v102 (p : Fin 100000) (q : Fin 1) (k : Fin 256) : lidx_main_v102 (ix2 p q) k = ix2 p k :=
  funext fun a => Fin.ext (by match a with | ⟨0, _⟩ => rfl | ⟨1, _⟩ => rfl)
theorem ridx_v102 (p : Fin 100000) (q : Fin 1) (k : Fin 256) : ridx_main_v102 (ix2 p q) k = ix2 k q :=
  funext fun a => Fin.ext (by match a with | ⟨0, _⟩ => rfl | ⟨1, _⟩ => rfl)
theorem lidx_v121 (p : Fin 100000) (q : Fin 256) (k : Fin 256) : lidx_main_v121 (ix2 p q) k = ix2 p k :=
  funext fun a => Fin.ext (by match a with | ⟨0, _⟩ => rfl | ⟨1, _⟩ => rfl)
theorem ridx_v121 (p : Fin 100000) (q : Fin 256) (k : Fin 256) : ridx_main_v121 (ix2 p q) k = ix2 k q :=
  funext fun a => Fin.ext (by match a with | ⟨0, _⟩ => rfl | ⟨1, _⟩ => rfl)
theorem lidx_v126 (p : Fin 100000) (q : Fin 256) (k : Fin 256) : lidx_main_v126 (ix2 p q) k = ix2 p k :=
  funext fun a => Fin.ext (by match a with | ⟨0, _⟩ => rfl | ⟨1, _⟩ => rfl)
theorem ridx_v126 (p : Fin 100000) (q : Fin 256) (k : Fin 256) : ridx_main_v126 (ix2 p q) k = ix2 k q :=
  funext fun a => Fin.ext (by match a with | ⟨0, _⟩ => rfl | ⟨1, _⟩ => rfl)
theorem lidx_v131 (p : Fin 100000) (q : Fin 1) (k : Fin 256) : lidx_main_v131 (ix2 p q) k = ix2 p k :=
  funext fun a => Fin.ext (by match a with | ⟨0, _⟩ => rfl | ⟨1, _⟩ => rfl)
theorem ridx_v131 (p : Fin 100000) (q : Fin 1) (k : Fin 256) : ridx_main_v131 (ix2 p q) k = ix2 k q :=
  funext fun a => Fin.ext (by match a with | ⟨0, _⟩ => rfl | ⟨1, _⟩ => rfl)
theorem bidx_v23 (p : Fin 50000) (q : Fin 256) : idx_main_v22 (idx_main_v23 (ix2 p q)) = ix1 q :=
  funext fun a => Fin.ext (by match a with | ⟨0, _⟩ => rfl)
theorem bidx_v49 (p : Fin 50000) (q : Fin 256) : idx_main_v48 (idx_main_v49 (ix2 p q)) = ix1 q :=
  funext fun a => Fin.ext (by match a with | ⟨0, _⟩ => rfl)
theorem bidx_v75 (p : Fin 50000) (q : Fin 256) : idx_main_v74 (idx_main_v75 (ix2 p q)) = ix1 q :=
  funext fun a => Fin.ext (by match a with | ⟨0, _⟩ => rfl)
theorem bidx_v94 (p : Fin 100000) (q : Fin 256) : idx_main_v93 (idx_main_v94 (ix2 p q)) = ix1 q :=
  funext fun a => Fin.ext (by match a with | ⟨0, _⟩ => rfl)
theorem bidx_v99 (p : Fin 100000) (q : Fin 256) : idx_main_v98 (idx_main_v99 (ix2 p q)) = ix1 q :=
  funext fun a => Fin.ext (by match a with | ⟨0, _⟩ => rfl)
theorem bidx_v123 (p : Fin 100000) (q : Fin 256) : idx_main_v122 (idx_main_v123 (ix2 p q)) = ix1 q :=
  funext fun a => Fin.ext (by match a with | ⟨0, _⟩ => rfl)
theorem bidx_v128 (p : Fin 100000) (q : Fin 256) : idx_main_v127 (idx_main_v128 (ix2 p q)) = ix1 q :=
  funext fun a => Fin.ext (by match a with | ⟨0, _⟩ => rfl)
/-- The last bias has one entry, and the output one column: the column index u is 0. -/
theorem bidx_v104 (p : Fin 100000) (u : Fin 1) : idx_main_v103 (idx_main_v104 (ix2 p u)) = ix1 u :=
  funext fun a => Fin.ext (by match a with | ⟨0, _⟩ => exact (Nat.lt_one_iff.mp u.isLt).symm)
/-- The last bias has one entry, and the output one column: the column index u is 0. -/
theorem bidx_v133 (p : Fin 100000) (u : Fin 1) : idx_main_v132 (idx_main_v133 (ix2 p u)) = ix1 u :=
  funext fun a => Fin.ext (by match a with | ⟨0, _⟩ => exact (Nat.lt_one_iff.mp u.isLt).symm)

variable (x0 : (⟨S50000x128, .f32⟩ : BufTy).Contents (Elt Ideal)) (x1 x2 : (⟨S800000, .i32⟩ : BufTy).Contents (Elt Ideal))
  (x3 x4 x5 x6 : (⟨S100000, .i32⟩ : BufTy).Contents (Elt Ideal)) (x7 x8 : (⟨S128x256, .f32⟩ : BufTy).Contents (Elt Ideal))
  (x9 : (⟨S256, .f32⟩ : BufTy).Contents (Elt Ideal)) (x10 x11 : (⟨S256x256, .f32⟩ : BufTy).Contents (Elt Ideal))
  (x12 : (⟨S256, .f32⟩ : BufTy).Contents (Elt Ideal)) (x13 x14 : (⟨S256x256, .f32⟩ : BufTy).Contents (Elt Ideal))
  (x15 : (⟨S256, .f32⟩ : BufTy).Contents (Elt Ideal)) (x16 : (⟨S256x256, .f32⟩ : BufTy).Contents (Elt Ideal))
  (x17 : (⟨S256, .f32⟩ : BufTy).Contents (Elt Ideal)) (x18 : (⟨S256x256, .f32⟩ : BufTy).Contents (Elt Ideal))
  (x19 : (⟨S256, .f32⟩ : BufTy).Contents (Elt Ideal)) (x20 : (⟨S256x1, .f32⟩ : BufTy).Contents (Elt Ideal))
  (x21 : (⟨S1, .f32⟩ : BufTy).Contents (Elt Ideal))

/-! ## The three layers -/

/-- The first layer: features %arg0, aggregate %18, weights %arg7 and %arg8, bias %arg9, then the maximum with zero. -/
theorem layer1_eq : val_main_v25 (F := Ideal) x0 x1 x2 x7 x8 x9
    = Cert.Sage.layerRelu x0 (val_main_v18 (F := Ideal) x0 x1 x2) x7 x8 x9 := by
  funext i
  obtain ⟨p, q, rfl⟩ : ∃ (p : Fin 50000) (q : Fin 256), i = ix2 p q := ⟨i 0, i 1, eq_ix2 i⟩
  rw [Cert.Sage.layerRelu_ix2, val_main_v25_apply, val_main_v24_apply, val_main_v21_apply, val_main_v19_apply,
    val_main_v20_apply, val_main_v23_apply, val_main_v22_apply, val_main_call0_v0_apply, val_main_call0_cst_apply]
  simp only [lidx_v19, ridx_v19, lidx_v20, ridx_v20, bidx_v23, Ideal.addf_def, Ideal.maximumf_def, Ideal.ofBits_def,
    Cert.Sage.layerEntry]

/-- The second layer: features %25, aggregate %44, weights %arg10 and %arg11, bias %arg12, then the maximum with zero. -/
theorem layer2_eq : val_main_v51 (F := Ideal) x0 x1 x2 x7 x8 x9 x10 x11 x12
    = Cert.Sage.layerRelu (val_main_v25 (F := Ideal) x0 x1 x2 x7 x8 x9) (val_main_v44 (F := Ideal) x0 x1 x2 x7 x8 x9) x10 x11 x12 := by
  funext i
  obtain ⟨p, q, rfl⟩ : ∃ (p : Fin 50000) (q : Fin 256), i = ix2 p q := ⟨i 0, i 1, eq_ix2 i⟩
  rw [Cert.Sage.layerRelu_ix2, val_main_v51_apply, val_main_v50_apply, val_main_v47_apply, val_main_v45_apply,
    val_main_v46_apply, val_main_v49_apply, val_main_v48_apply, val_main_call1_v0_apply, val_main_call1_cst_apply]
  simp only [lidx_v45, ridx_v45, lidx_v46, ridx_v46, bidx_v49, Ideal.addf_def, Ideal.maximumf_def, Ideal.ofBits_def,
    Cert.Sage.layerEntry]

/-- The third layer: features %51, aggregate %70, weights %arg13 and %arg14, bias %arg15, and no maximum. -/
theorem layer3_eq : val_main_v76 (F := Ideal) x0 x1 x2 x7 x8 x9 x10 x11 x12 x13 x14 x15
    = Cert.Sage.layerLin (val_main_v51 (F := Ideal) x0 x1 x2 x7 x8 x9 x10 x11 x12) (val_main_v70 (F := Ideal) x0 x1 x2 x7 x8 x9 x10 x11 x12) x13 x14 x15 := by
  funext i
  obtain ⟨p, q, rfl⟩ : ∃ (p : Fin 50000) (q : Fin 256), i = ix2 p q := ⟨i 0, i 1, eq_ix2 i⟩
  rw [Cert.Sage.layerLin_ix2, val_main_v76_apply, val_main_v73_apply, val_main_v71_apply, val_main_v72_apply,
    val_main_v75_apply, val_main_v74_apply]
  simp only [lidx_v71, ridx_v71, lidx_v72, ridx_v72, bidx_v75, Ideal.addf_def, Cert.Sage.layerEntry]

/-! ## The predictor

Its two hidden stages first, each an affine map of a row followed by the maximum with zero, then the output column. -/

/-- The first hidden stage of the predictor on the positive edges, at entry (p, j). -/
theorem hidden1_pos (p : Fin 100000) (j : Fin 256) :
    val_main_v96 (F := Ideal) x0 x1 x2 x3 x4 x7 x8 x9 x10 x11 x12 x13 x14 x15 x16 x17 (ix2 p j)
      = Cert.Sage.hidden (fun k => val_main_v91 (F := Ideal) x0 x1 x2 x3 x4 x7 x8 x9 x10 x11 x12 x13 x14 x15 (ix2 p k)) x16 x17 j := by
  rw [val_main_v96_apply, val_main_v95_apply, val_main_v92_apply, val_main_v94_apply, val_main_v93_apply,
    val_main_call2_v0_apply, val_main_call2_cst_apply]
  simp only [lidx_v92, ridx_v92, bidx_v94, Ideal.addf_def, Ideal.maximumf_def, Ideal.ofBits_def, Cert.Sage.hidden]

/-- The second hidden stage of the predictor on the positive edges, at entry (p, j). -/
theorem hidden2_pos (p : Fin 100000) (j : Fin 256) :
    val_main_v101 (F := Ideal) x0 x1 x2 x3 x4 x7 x8 x9 x10 x11 x12 x13 x14 x15 x16 x17 x18 x19 (ix2 p j)
      = Cert.Sage.hidden (Cert.Sage.hidden (fun k => val_main_v91 (F := Ideal) x0 x1 x2 x3 x4 x7 x8 x9 x10 x11 x12 x13 x14 x15 (ix2 p k)) x16 x17) x18 x19 j := by
  rw [val_main_v101_apply, val_main_v100_apply, val_main_v97_apply, val_main_v99_apply, val_main_v98_apply,
    val_main_call3_v0_apply, val_main_call3_cst_apply]
  simp only [lidx_v97, ridx_v97, bidx_v99, hidden1_pos, Ideal.addf_def, Ideal.maximumf_def, Ideal.ofBits_def]
  rfl

/-- The predictor on the positive edges: the edge features %91, weights %arg16, %arg18, %arg20, biases %arg17, %arg19, %arg21. -/
theorem pred_pos_eq : val_main_v105 (F := Ideal) x0 x1 x2 x3 x4 x7 x8 x9 x10 x11 x12 x13 x14 x15 x16 x17 x18 x19 x20 x21
    = Cert.Sage.predArr (val_main_v91 (F := Ideal) x0 x1 x2 x3 x4 x7 x8 x9 x10 x11 x12 x13 x14 x15) x16 x17 x18 x19 x20 x21 := by
  funext i
  obtain ⟨p, u, rfl⟩ : ∃ (p : Fin 100000) (u : Fin 1), i = ix2 p u := ⟨i 0, i 1, eq_ix2 i⟩
  rw [Cert.Sage.predArr_ix2, val_main_v105_apply, val_main_v102_apply, val_main_v104_apply, val_main_v103_apply]
  simp only [lidx_v102, ridx_v102, bidx_v104, hidden2_pos, Ideal.addf_def]
  rfl

/-- The first hidden stage of the predictor on the negative edges, at entry (p, j). -/
theorem hidden1_neg (p : Fin 100000) (j : Fin 256) :
    val_main_v125 (F := Ideal) x0 x1 x2 x5 x6 x7 x8 x9 x10 x11 x12 x13 x14 x15 x16 x17 (ix2 p j)
      = Cert.Sage.hidden (fun k => val_main_v120 (F := Ideal) x0 x1 x2 x5 x6 x7 x8 x9 x10 x11 x12 x13 x14 x15 (ix2 p k)) x16 x17 j := by
  rw [val_main_v125_apply, val_main_v124_apply, val_main_v121_apply, val_main_v123_apply, val_main_v122_apply,
    val_main_call4_v0_apply, val_main_call4_cst_apply]
  simp only [lidx_v121, ridx_v121, bidx_v123, Ideal.addf_def, Ideal.maximumf_def, Ideal.ofBits_def, Cert.Sage.hidden]

/-- The second hidden stage of the predictor on the negative edges, at entry (p, j). -/
theorem hidden2_neg (p : Fin 100000) (j : Fin 256) :
    val_main_v130 (F := Ideal) x0 x1 x2 x5 x6 x7 x8 x9 x10 x11 x12 x13 x14 x15 x16 x17 x18 x19 (ix2 p j)
      = Cert.Sage.hidden (Cert.Sage.hidden (fun k => val_main_v120 (F := Ideal) x0 x1 x2 x5 x6 x7 x8 x9 x10 x11 x12 x13 x14 x15 (ix2 p k)) x16 x17) x18 x19 j := by
  rw [val_main_v130_apply, val_main_v129_apply, val_main_v126_apply, val_main_v128_apply, val_main_v127_apply,
    val_main_call5_v0_apply, val_main_call5_cst_apply]
  simp only [lidx_v126, ridx_v126, bidx_v128, hidden1_neg, Ideal.addf_def, Ideal.maximumf_def, Ideal.ofBits_def]
  rfl

/-- The predictor on the negative edges: the edge features %120, weights %arg16, %arg18, %arg20, biases %arg17, %arg19, %arg21. -/
theorem pred_neg_eq : val_main_v134 (F := Ideal) x0 x1 x2 x5 x6 x7 x8 x9 x10 x11 x12 x13 x14 x15 x16 x17 x18 x19 x20 x21
    = Cert.Sage.predArr (val_main_v120 (F := Ideal) x0 x1 x2 x5 x6 x7 x8 x9 x10 x11 x12 x13 x14 x15) x16 x17 x18 x19 x20 x21 := by
  funext i
  obtain ⟨p, u, rfl⟩ : ∃ (p : Fin 100000) (u : Fin 1), i = ix2 p u := ⟨i 0, i 1, eq_ix2 i⟩
  rw [Cert.Sage.predArr_ix2, val_main_v134_apply, val_main_v131_apply, val_main_v133_apply, val_main_v132_apply]
  simp only [lidx_v131, ridx_v131, bidx_v133, hidden2_neg, Ideal.addf_def]
  rfl

end Cert.ReferenceIdeal.RefSpec

end
-- ==== Proof.RefNet.lean ====
/-
  The reference program's two results as the network's function of the arguments.

  Stage by stage the reference applies a layer to the previous features and their mean over incoming edges, then the
  predictor to the pair products: substituting each stage's reading into the next gives the same composition the kernel
  program's boundary contents were walked to.
-/
import proofs.«145438_j62165356642855_1_alg».proof.Proof.Gen.ReferenceIdeal.Read
import proofs.«145438_j62165356642855_1_alg».proof.Proof.Spec
import proofs.«145438_j62165356642855_1_alg».proof.Proof.HostChain
import proofs.«145438_j62165356642855_1_alg».proof.Proof.RefSpec

noncomputable section

namespace Cert.ReferenceIdeal.RefNet

open Idealize.ShloMosaic Cert.ReferenceIdeal Cert.ReferenceIdeal.Read Cert.ReferenceIdeal.RefSpec Cert.Sage Cert.Sage.Chain

variable (x0 : (⟨S50000x128, .f32⟩ : BufTy).Contents (Elt Ideal)) (x1 x2 : (⟨S800000, .i32⟩ : BufTy).Contents (Elt Ideal))
  (x3 x4 x5 x6 : (⟨S100000, .i32⟩ : BufTy).Contents (Elt Ideal))
  (x7 x8 : (⟨S128x256, .f32⟩ : BufTy).Contents (Elt Ideal)) (x9 : (⟨S256, .f32⟩ : BufTy).Contents (Elt Ideal))
  (x10 x11 : (⟨S256x256, .f32⟩ : BufTy).Contents (Elt Ideal)) (x12 : (⟨S256, .f32⟩ : BufTy).Contents (Elt Ideal))
  (x13 x14 : (⟨S256x256, .f32⟩ : BufTy).Contents (Elt Ideal)) (x15 : (⟨S256, .f32⟩ : BufTy).Contents (Elt Ideal))
  (x16 : (⟨S256x256, .f32⟩ : BufTy).Contents (Elt Ideal)) (x17 : (⟨S256, .f32⟩ : BufTy).Contents (Elt Ideal))
  (x18 : (⟨S256x256, .f32⟩ : BufTy).Contents (Elt Ideal)) (x19 : (⟨S256, .f32⟩ : BufTy).Contents (Elt Ideal))
  (x20 : (⟨S256x1, .f32⟩ : BufTy).Contents (Elt Ideal)) (x21 : (⟨S1, .f32⟩ : BufTy).Contents (Elt Ideal))

/-- The reference's third layer's result is the network's features after three layers. -/
theorem feat3_eq : val_main_v76 (F := Ideal) x0 x1 x2 x7 x8 x9 x10 x11 x12 x13 x14 x15
    = feat3 x0 x1 x2 x7 x8 x9 x10 x11 x12 x13 x14 x15 := by
  rw [layer3_eq, agg256_third, layer2_eq, agg256_second, layer1_eq]
  rfl

/-- The reference's first result: the predictor's outputs for the positive pairs. -/
theorem pos_eq : val_main_v105 (F := Ideal) x0 x1 x2 x3 x4 x7 x8 x9 x10 x11 x12 x13 x14 x15 x16 x17 x18 x19 x20 x21
    = score x0 x1 x2 x7 x8 x9 x10 x11 x12 x13 x14 x15 x16 x17 x18 x19 x20 x21 x3 x4 := by
  rw [pred_pos_eq, pairs_pos, feat3_eq]
  rfl

/-- The reference's second result: the predictor's outputs for the negative pairs. -/
theorem neg_eq : val_main_v134 (F := Ideal) x0 x1 x2 x5 x6 x7 x8 x9 x10 x11 x12 x13 x14 x15 x16 x17 x18 x19 x20 x21
    = score x0 x1 x2 x7 x8 x9 x10 x11 x12 x13 x14 x15 x16 x17 x18 x19 x20 x21 x5 x6 := by
  rw [pred_neg_eq, pairs_neg, feat3_eq]
  rfl

end Cert.ReferenceIdeal.RefNet

end
-- ==== Proof.lean ====
/-
  The certificate of a three-layer graph network with an edge predictor: a tiled kernel program against a plain
  reference, equal at the ideal instance.

  Both programs compute, for node features x, three layers  h' = (h * Ws + mean(h) * Wn) + b  (the first two followed
  by the maximum with zero), where mean(h) is the mean of h's rows over each node's incoming edges, and then, for every
  candidate pair of nodes, a three-stage predictor of the product of the two nodes' final rows.  The mean and the pair
  products are the same host operations in both programs.  The kernel program computes each layer in a region tiled by
  2000 rows, and the predictor once on the positive and the negative pairs stacked, tiled by 2000 rows, cutting the
  result in two afterwards; the reference computes each on whole arrays and the predictor twice.  At the ideal instance a
  change of float format is the identity and a matrix product into a zero accumulator is the plain sum of products, and
  every entry of a layer or of the predictor depends on one row of the left operand only; so tiling by rows and
  stacking rows change nothing, and the two programs' results are one function of the arguments (`Cert.Sage.Chain.score`).
  No step needs the inputs to be finite: only sums and products in the same order and grouping are compared.

  The three frames: the two kernel programs' frames are the generated ones; the reference's is its generated run with
  the results dropped.  The idealization rewrote no operation, so there is nothing to preserve.
-/
import proofs.«145438_j62165356642855_1_alg».proof.Defs
import proofs.«145438_j62165356642855_1_alg».proof.Proof.Gen.Kernel
import proofs.«145438_j62165356642855_1_alg».proof.Proof.Gen.Kernel.Skeleton
import proofs.«145438_j62165356642855_1_alg».proof.Proof.Gen.Kernel.Launch
import proofs.«145438_j62165356642855_1_alg».proof.Proof.Gen.Kernel.Points
import proofs.«145438_j62165356642855_1_alg».proof.Proof.Gen.Kernel.Frame
import proofs.«145438_j62165356642855_1_alg».proof.Proof.Gen.KernelIdeal
import proofs.«145438_j62165356642855_1_alg».proof.Proof.Gen.KernelIdeal.Skeleton
import proofs.«145438_j62165356642855_1_alg».proof.Proof.Gen.KernelIdeal.Launch
import proofs.«145438_j62165356642855_1_alg».proof.Proof.Gen.KernelIdeal.Points
import proofs.«145438_j62165356642855_1_alg».proof.Proof.Gen.KernelIdeal.Frame
import proofs.«145438_j62165356642855_1_alg».proof.Proof.Gen.ReferenceIdeal
import proofs.«145438_j62165356642855_1_alg».proof.Proof.Gen.ReferenceIdeal.Run
import proofs.«145438_j62165356642855_1_alg».proof.Proof.Gen.ReferenceIdeal.Read
import proofs.«145438_j62165356642855_1_alg».proof.Proof.Gen.Pre_finite_inputs
import proofs.«145438_j62165356642855_1_alg».proof.Proof.KRun
import proofs.«145438_j62165356642855_1_alg».proof.Proof.KFold
import proofs.«145438_j62165356642855_1_alg».proof.Proof.RefNet
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the predictor's outputs for the positive and for
    the negative pairs, as one function of the arguments. -/
theorem algebraic : Cert.algebraic_KernelIdeal_ReferenceIdeal := by
  intro m ρ m' ρ' _ hagree
  refine ⟨fun c => Cert.Sage.Chain.score (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Sage.Chain.score (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Fold.result_pos m ρ c),
        (h c).2.1.trans (Cert.KernelIdeal.Fold.result_neg m ρ c), (h c).2.2⟩)
      (Cert.KernelIdeal.Whole.run_named (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v105_eq, Cert.ReferenceIdeal.RefNet.pos_eq]
      rw [(hagree c).1, (hagree c).2.1, (hagree c).2.2.1, (hagree c).2.2.2.1, (hagree c).2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]
    · rw [Cert.ReferenceIdeal.Read.val_main_v134_eq, Cert.ReferenceIdeal.RefNet.neg_eq]
      rw [(hagree c).1, (hagree c).2.1, (hagree c).2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
